-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1x2048 : Shape := ⟨2, ![1, 2048]⟩
abbrev S1 : Shape := ⟨1, ![1]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S1 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1 .f32) (main_arg5 : FVec F S1x2048 .f32) (main_arg6 : FVec F S1 .f32) (main_arg7 : FVec F S1x1024 .f32) (main_arg8 : FVec F S1 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S16384x1024 .f32) (main_arg1 : FVec F S1024x1024 .f32) (main_arg2 : FVec F S1024x1024 .f32) (main_arg3 : FVec F S1x2048 .f32) (main_arg4 : FVec F S1 .f32) (main_arg5 : FVec F S1x2048 .f32) (main_arg6 : FVec F S1 .f32) (main_arg7 : FVec F S1x1024 .f32) (main_arg8 : FVec F S1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_arg7 main_arg8 main_v13 main_v16
-- ==== Kernel.lean ====
abbrev S16384x1024 : Shape := ⟨2, ![16384, 1024]⟩
abbrev S1024x1024 : Shape := ⟨2, ![1024, 1024]⟩
abbrev S1x2048 : Shape := ⟨2, ![1, 2048]⟩
abbrev S1 : Shape := ⟨1, ![1]⟩
abbrev S1x1024 : Shape := ⟨2, ![1, 1024]⟩
abbrev S_ : Shape := ⟨0, ![]⟩
abbrev S1024x128 : Shape := ⟨2, ![1024, 128]⟩
abbrev S1024 : Shape := ⟨1, ![1024]⟩
abbrev S1x1 : Shape := ⟨2, ![1, 1]⟩
abbrev S2x1024x1024 : Shape := ⟨3, ![2, 1024, 1024]⟩
abbrev S2x1x1 : Shape := ⟨3, ![2, 1, 1]⟩
abbrev S1x1024x1024 : Shape := ⟨3, ![1, 1024, 1024]⟩
abbrev S1x1x1 : Shape := ⟨3, ![1, 1, 1]⟩
abbrev S1024x1 : Shape := ⟨2, ![1024, 1]⟩

abbrev nBuf : Space → Nat
  | .hbm => 78
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1x2048, .f32⟩
  | .hbm, ⟨4, _⟩ => ⟨S1, .f32⟩
  | .hbm, ⟨5, _⟩ => ⟨S1x2048, .f32⟩
  | .hbm, ⟨6, _⟩ => ⟨S1, .f32⟩
  | .hbm, ⟨7, _⟩ => ⟨S1x1024, .f32⟩
  | .hbm, ⟨8, _⟩ => ⟨S1, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1024x128, .f32⟩
  | .hbm, ⟨18, _⟩ => ⟨S1024, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S1024, .f32⟩
  | .hbm, ⟨23, _⟩ => ⟨S_, .i32⟩
  | .hbm, ⟨24, _⟩ => ⟨S1, .i32⟩
  | .hbm, ⟨25, _⟩ => ⟨S1024x128, .f32⟩
  | .hbm, ⟨26, _⟩ => ⟨S1024, .f32⟩
  | .hbm, ⟨27, _⟩ => ⟨S_, .i32⟩
  | .hbm, ⟨28, _⟩ => ⟨S1, .i32⟩
  | .hbm, ⟨29, _⟩ => ⟨S1024x128, .f32⟩
  | .hbm, ⟨30, _⟩ => ⟨S1024x128, .bf16⟩
  | .hbm, ⟨31, _⟩ => ⟨S_, .f32⟩
  | .hbm, ⟨32, _⟩ => ⟨S1024x128, .f32⟩
  | .hbm, ⟨33, _⟩ => ⟨S1024, .f32⟩
  | .hbm, ⟨34, _⟩ => ⟨S_, .i32⟩
  | .hbm, ⟨35, _⟩ => ⟨S1, .i32⟩
  | .hbm, ⟨36, _⟩ => ⟨S1024x128, .f32⟩
  | .hbm, ⟨37, _⟩ => ⟨S1024, .f32⟩
  | .hbm, ⟨38, _⟩ => ⟨S_, .i32⟩
  | .hbm, ⟨39, _⟩ => ⟨S1, .i32⟩
  | .hbm, ⟨40, _⟩ => ⟨S1024x128, .f32⟩
  | .hbm, ⟨41, _⟩ => ⟨S1024x128, .bf16⟩
  | .hbm, ⟨42, _⟩ => ⟨S1x1, .f32⟩
  | .hbm, ⟨43, _⟩ => ⟨S1x1, .f32⟩
  | .hbm, ⟨44, _⟩ => ⟨S1x1, .f32⟩
  | .hbm, ⟨45, _⟩ => ⟨S16384x1024, .f32⟩
  | .hbm, ⟨46, _⟩ => ⟨S2x1024x1024, .f32⟩
  | .hbm, ⟨47, _⟩ => ⟨S2x1x1, .f32⟩
  | .hbm, ⟨48, _⟩ => ⟨S2x1x1, .f32⟩
  | .hbm, ⟨49, _⟩ => ⟨S1x1x1, .f32⟩
  | .hbm, ⟨50, _⟩ => ⟨S_, .f32⟩
  | .hbm, ⟨51, _⟩ => ⟨S1x1x1, .f32⟩
  | .hbm, ⟨52, _⟩ => ⟨S_, .f32⟩
  | .hbm, ⟨53, _⟩ => ⟨S_, .f32⟩
  | .hbm, ⟨54, _⟩ => ⟨S1x1x1, .f32⟩
  | .hbm, ⟨55, _⟩ => ⟨S_, .f32⟩
  | .hbm, ⟨56, _⟩ => ⟨S1x1x1, .f32⟩
  | .hbm, ⟨57, _⟩ => ⟨S_, .f32⟩
  | .hbm, ⟨58, _⟩ => ⟨S_, .f32⟩
  | .hbm, ⟨59, _⟩ => ⟨S1x1024x1024, .f32⟩
  | .hbm, ⟨60, _⟩ => ⟨S1024x1024, .f32⟩
  | .hbm, ⟨61, _⟩ => ⟨S1x1024x1024, .f32⟩
  | .hbm, ⟨62, _⟩ => ⟨S1024x1024, .f32⟩
  | .hbm, ⟨63, _⟩ => ⟨S1024x1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1024x1024, .f32⟩
  | .hbm, ⟨70, _⟩ => ⟨S1024x1024, .f32⟩
  | .hbm, ⟨71, _⟩ => ⟨S1024x1024, .f32⟩
  | .hbm, ⟨72, _⟩ => ⟨S1024x1024, .f32⟩
  | .hbm, ⟨73, _⟩ => ⟨S_, .f32⟩
  | .hbm, ⟨74, _⟩ => ⟨S_, .f32⟩
  | .hbm, ⟨75, _⟩ => ⟨S1024x1024, .f32⟩
  | .hbm, ⟨76, _⟩ => ⟨S1024x1024, .f32⟩
  | .hbm, ⟨77, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S1024x128, .bf16⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1024x1024, .f32⟩
  | .local _ .vmem, ⟨10, _⟩ => ⟨S1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1024x1024, .f32⟩
  | .local _ .vmem, ⟨18, _⟩ => ⟨S1x1, .f32⟩
  | .local _ .vmem, ⟨19, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v69 : BitVec 1 := Scalar.cmpi .eq arg1 c7_i32
  let v70 : BitVec 32 := Scalar.extui v69
  let c0_i32_37 : BitVec 32 := 0#32
  let v71 : BitVec 1 := Scalar.cmpi .ne v70 c0_i32_37
  v71

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  transposes_S1024x1024_S1024x1024_1_0 : S1024x1024.Transposes [1, 0] S1024x1024
  bitsLt_bf16_f32 : FTy.bits .bf16 < FTy.bits .f32
  slices_S1x2048_S1x1024_0_0 : S1x2048.Slices ![0, 0] S1x1024
  slices_S1x2048_S1x1024_0_1024 : S1x2048.Slices ![0, 1024] S1x1024
  bcast_S_S1024x128 : S_.BroadcastsInDim S1024x128 (![] : Fin 0 → Fin S1024x128.rank)
  shapeCasts_S1x1024_S1024 : S1x1024.ShapeCasts S1024
  bcast_S_S1 : S_.BroadcastsInDim S1 (![] : Fin 0 → Fin S1.rank)
  shapeCasts_S1_S1x1 : S1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x1 : S1024x128.Slices ![0, 0] S1024x1
  broadcasts_S1x1_S1024x1 : S1x1.Broadcasts S1024x1
  slices_S1024x128_o0_1_S1024x1 : S1024x128.Slices ![0, 1] S1024x1
  slices_S1024x128_o0_2_S1024x1 : S1024x128.Slices ![0, 2] S1024x1
  broadcasts_S1024x1_S1024x1024 : S1024x1.Broadcasts S1024x1024
  reduces_S1024x1_S1 : S1024x1.Reduces [0] S1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  slices_S2x1024x1024_S1x1024x1024_0_0_0 : S2x1024x1024.Slices ![0, 0, 0] S1x1024x1024
  slices_S2x1024x1024_S1x1024x1024_1_0_0 : S2x1024x1024.Slices ![1, 0, 0] S1x1024x1024
  bcast_S_S1024x1024 : S_.BroadcastsInDim S1024x1024 (![] : Fin 0 → Fin S1024x1024.rank)
  scatter_S1024x128_S1_S1024_0_1_1_0_wf : ScatterDims.WF S1024x128 S1 S1024 [0] [1] [1] 0
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S16384x1024.size a
  hwx0_8 : ∀ i : grid0.Coords, EltTy.bits .f32 = 32 ∨ (Rect.block (s := S16384x1024) S1024x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x1024.size a ≤ S2x1024x1024.size a
  hwx0_9 : ∀ i : grid0.Coords, EltTy.bits .f32 = 32 ∨ (Rect.block (s := S2x1024x1024) S1x1024x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S2x1x1.size a
  hwx0_10 : ∀ i : grid0.Coords, EltTy.bits .f32 = 32 ∨ (Rect.block (s := S2x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1.size a ≤ S2x1x1.size a
  hwx0_11 : ∀ i : grid0.Coords, EltTy.bits .f32 = 32 ∨ (Rect.block (s := S2x1x1) S1x1x1.size (cc0_transform_11 i) (hinb0_11 i)).WholeWords (EltTy.packing .f32)

variable [Facts₀]

def scatter_S1024x128_S1_S1024_0_1_1_0 : ScatterDims S1024x128 S1 S1024 where
  updateWindowDims := [0]
  insertedWindowDims := [1]
  scatterDimsToOperandDims := [1]
  indexVectorDim := 0
  wf := scatter_S1024x128_S1_S1024_0_1_1_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29_0) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29_1) S1x1024x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_2) S1x1x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v29_3) S1x1x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S16384x1024 : Shape := ⟨2, ![16384, 1024]⟩
abbrev S1024x1024 : Shape := ⟨2, ![1024, 1024]⟩
abbrev S1x2048 : Shape := ⟨2, ![1, 2048]⟩
abbrev S1 : Shape := ⟨1, ![1]⟩
abbrev S1x1024 : Shape := ⟨2, ![1, 1024]⟩
abbrev S16384x2048 : Shape := ⟨2, ![16384, 2048]⟩
abbrev S2048x1 : Shape := ⟨2, ![2048, 1]⟩
abbrev S16384x1 : Shape := ⟨2, ![16384, 1]⟩
abbrev S1x1 : Shape := ⟨2, ![1, 1]⟩
abbrev S_ : Shape := ⟨0, ![]⟩
abbrev S1024x1 : Shape := ⟨2, ![1024, 1]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1x2048, .f32⟩
  | .hbm, ⟨4, _⟩ => ⟨S1, .f32⟩
  | .hbm, ⟨5, _⟩ => ⟨S1x2048, .f32⟩
  | .hbm, ⟨6, _⟩ => ⟨S1, .f32⟩
  | .hbm, ⟨7, _⟩ => ⟨S1x1024, .f32⟩
  | .hbm, ⟨8, _⟩ => ⟨S1, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x2048, .f32⟩
  | .hbm, ⟨14, _⟩ => ⟨S2048x1, .f32⟩
  | .hbm, ⟨15, _⟩ => ⟨S16384x1, .f32⟩
  | .hbm, ⟨16, _⟩ => ⟨S1x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S2048x1, .f32⟩
  | .hbm, ⟨28, _⟩ => ⟨S16384x1, .f32⟩
  | .hbm, ⟨29, _⟩ => ⟨S1x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1, .f32⟩
  | .hbm, ⟨60, _⟩ => ⟨S16384x1, .f32⟩
  | .hbm, ⟨61, _⟩ => ⟨S1x1, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  transposes_S1024x1024_S1024x1024_1_0 : S1024x1024.Transposes [1, 0] S1024x1024
  concatenates_S16384x1024_S16384x1024_S16384x2048_d1 : Shape.Concatenates [S16384x1024, S16384x1024] S16384x2048 1
  transposes_S1x2048_S2048x1_1_0 : S1x2048.Transposes [1, 0] S2048x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  bcast_S_S1024x1024 : S_.BroadcastsInDim S1024x1024 (![] : Fin 0 → Fin S1024x1024.rank)
  reducesTo_S16384x1_S_d0_1 : S16384x1.ReducesTo [0, 1] S_
  h_S_ : 0 < S_.numel
  transposes_S1x1024_S1024x1_1_0 : S1x1024.Transposes [1, 0] S1024x1
  bcast_S16384x1_S16384x1024_0_1 : S16384x1.BroadcastsInDim S16384x1024 (![0, 1] : Fin 2 → Fin S16384x1024.rank)
  dot_S16384x1024_S1024x1024_S16384x1024_1_0_0_1_n_n_wf : DotDims.WF S16384x1024 S1024x1024 S16384x1024 [1] [0] [0] [1] [] []
  dot_S16384x2048_S2048x1_S16384x1_1_0_0_1_n_n_wf : DotDims.WF S16384x2048 S2048x1 S16384x1 [1] [0] [0] [1] [] []
  dot_S16384x1024_S16384x1024_S1024x1024_0_0_1_1_n_n_wf : DotDims.WF S16384x1024 S16384x1024 S1024x1024 [0] [0] [1] [1] [] []
  dot_S16384x1024_S1024x1_S16384x1_1_0_0_1_n_n_wf : DotDims.WF S16384x1024 S1024x1 S16384x1 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf
def dot_S16384x1024_S16384x1024_S1024x1024_0_0_1_1_n_n : DotDims S16384x1024 S16384x1024 S1024x1024 where
  lhsContracting := [0]
  rhsContracting := [0]
  lhsNonContracting := [1]
  rhsNonContracting := [1]
  lhsBatch := []
  rhsBatch := []
  wf := dot_S16384x1024_S16384x1024_S1024x1024_0_0_1_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.ReferenceTerm.lean ====
/-
  The reference program's two results as pure terms of its nine argument arrays, stage by stage.

  The program is straight-line: the projection x · V_wᵀ and the prediction x · M as host products; the two gates as
  the logistic function — spelt 1 / (1 + exp (−z)) — of the 2048-wide row (projection | input) against the gate's
  transposed weight row plus its bias; their means over the batch as a sum from zero over both axes of a [16384, 1]
  column, divided by 16384; the Hebbian term as the product of (projection − prediction)ᵀ with x, divided by 16384;
  the mixing gate from the projection alone; the first result mix · projection + (1 − mix) · prediction and the second
  mean(forget) · M + (mean(update) · 0.1) · Hebbian term.  Each definition is one operation of the program applied to
  earlier ones, generic in the float instance.
-/
import proofs.«126602_j18769007084097_2_alg».proof.Proof.Gen.ReferenceIdeal

noncomputable section

namespace Cert.ReferenceIdeal.RefTerm

open Cert.ReferenceIdeal Cert.ReferenceIdeal.Gen Idealize.ShloMosaic

variable {F : FTy → Type} [FloatOps F]

section
variable (a0 : FVec F S16384x1024 .f32) (a1 a2 : FVec F S1024x1024 .f32)

/-- x · V_wᵀ. -/
def tProj : FVec F S16384x1024 .f32 :=
  Host.dotGeneral dot_S16384x1024_S1024x1024_S16384x1024_1_0_0_1_n_n none a0
    (transpose S1024x1024 [1, 0] a1 transposes_S1024x1024_S1024x1024_1_0)

/-- x · M. -/
def tPred : FVec F S16384x1024 .f32 :=
  Host.dotGeneral dot_S16384x1024_S1024x1024_S16384x1024_1_0_0_1_n_n none a0 a2

/-- The 2048-wide rows (projection | input). -/
def tCat : FVec F S16384x2048 .f32 :=
  concatenate S16384x2048 1 [⟨S16384x1024, tProj a0 a1⟩, ⟨S16384x1024, a0⟩] concatenates_S16384x1024_S16384x1024_S16384x2048_d1

end

/-- The logistic function as the program spells it: 1 / (1 + exp (−z)), on a [16384, 1] column. -/
def tSigmoid (z : FVec F S16384x1 .f32) : FVec F S16384x1 .f32 :=
  Host.divf (broadcastInDim S16384x1 ![] bcast_S_S16384x1 (constant S_ .f32 0x3F800000#32))
    (addf (broadcastInDim S16384x1 ![] bcast_S_S16384x1 (constant S_ .f32 0x3F800000#32)) (Host.exp (Host.negf z)))

/-- A bias [1] spread down a [16384, 1] column. -/
def tBias (b : FVec F S1 .f32) : FVec F S16384x1 .f32 :=
  broadcastInDim S16384x1 ![0, 1] bcast_S1x1_S16384x1_0_1 (broadcastInDim S1x1 ![1] bcast_S1_S1x1_1 b)

/-- The mean over the batch of a [16384, 1] column: its sum from zero over both axes, divided by 16384. -/
def tMean (g : FVec F S16384x1 .f32) : FVec F S_ .f32 :=
  Host.divf (Host.reduceAdd g (constant S_ .f32 0x00000000#32) reducesTo_S16384x1_S_d0_1 h_S_) (constant S_ .f32 0x46800000#32)

section
variable (a0 : FVec F S16384x1024 .f32) (a1 a2 : FVec F S1024x1024 .f32)

/-- A gate (forget or update) of weights `gw` and bias `gb`. -/
def tGate (gw : FVec F S1x2048 .f32) (gb : FVec F S1 .f32) : FVec F S16384x1 .f32 :=
  tSigmoid (addf (Host.dotGeneral dot_S16384x2048_S2048x1_S16384x1_1_0_0_1_n_n none (tCat a0 a1)
      (transpose S2048x1 [1, 0] gw transposes_S1x2048_S2048x1_1_0)) (tBias gb))

/-- (projection − prediction)ᵀ · x / 16384. -/
def tHebb : FVec F S1024x1024 .f32 :=
  Host.divf (Host.dotGeneral dot_S16384x1024_S16384x1024_S1024x1024_0_0_1_1_n_n none (subf (tProj a0 a1) (tPred a0 a2)) a0)
    (broadcastInDim S1024x1024 ![] bcast_S_S1024x1024 (constant S_ .f32 0x46800000#32))

/-- The mixing gate. -/
def tMix (a7 : FVec F S1x1024 .f32) (a8 : FVec F S1 .f32) : FVec F S16384x1 .f32 :=
  tSigmoid (addf (Host.dotGeneral dot_S16384x1024_S1024x1_S16384x1_1_0_0_1_n_n none (tProj a0 a1)
      (transpose S1024x1 [1, 0] a7 transposes_S1x1024_S1024x1_1_0)) (tBias a8))

/-- The first result. -/
def tOut (a7 : FVec F S1x1024 .f32) (a8 : FVec F S1 .f32) : FVec F S16384x1024 .f32 :=
  addf (mulf (broadcastInDim S16384x1024 ![0, 1] bcast_S16384x1_S16384x1024_0_1 (tMix a0 a1 a7 a8)) (tProj a0 a1))
    (mulf (broadcastInDim S16384x1024 ![0, 1] bcast_S16384x1_S16384x1024_0_1
        (subf (broadcastInDim S16384x1 ![] bcast_S_S16384x1 (constant S_ .f32 0x3F800000#32)) (tMix a0 a1 a7 a8)))
      (tPred a0 a2))

/-- The second result. -/
def tNewM (a3 : FVec F S1x2048 .f32) (a4 : FVec F S1 .f32) (a5 : FVec F S1x2048 .f32) (a6 : FVec F S1 .f32) :
    FVec F S1024x1024 .f32 :=
  addf (mulf (broadcastInDim S1024x1024 ![] bcast_S_S1024x1024 (tMean (tGate a0 a1 a3 a4))) a2)
    (mulf (broadcastInDim S1024x1024 ![] bcast_S_S1024x1024
        (mulf (tMean (tGate a0 a1 a5 a6)) (constant S_ .f32 0x3DCCCCCD#32)))
      (tHebb a0 a1 a2))

end

end Cert.ReferenceIdeal.RefTerm

end
-- ==== Proof.ReferenceRun.lean ====
/-
  The reference program runs to its two composed terms.

  Its @main is a straight line of 71 host operations, listed here in program order as the printed program spells
  them.  From any memory with zero counters every weakly fair execution terminates; each buffer then holds the fold of
  the operations' results over the launch contents, and reading that fold at the two result buffers gives the stage
  definitions of the first result (the blended rows) and of the second (the updated memory) applied to the argument
  arrays, while no operation writes an argument.  The reads that sit inside the operand list of the concatenation
  (projection | input) are resolved one operation at a time, by rewriting.
-/
import proofs.«126602_j18769007084097_2_alg».proof.Proof.ReferenceTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 71 operations, in program order. -/
abbrev ops : List (HloOp τ sig (Elt F)) :=
  [ unary main_arg1 main_v0 ((transpose S1024x1024 [1, 0] · transposes_S1024x1024_S1024x1024_1_0) : (⟨S1024x1024, .f32⟩ : BufTy).Contents (Elt F) → (⟨S1024x1024, .f32⟩ : BufTy).Contents (Elt F)),
    binary main_arg0 main_v0 main_v1 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    binary main_arg0 main_arg2 main_v2 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    binary main_v1 main_v2 main_v3 (subf : (⟨S16384x1024, .f32⟩ : BufTy).Contents (Elt F) → (⟨S16384x1024, .f32⟩ : BufTy).Contents (Elt F) → (⟨S16384x1024, .f32⟩ : BufTy).Contents (Elt F)),
    binary main_v1 main_arg0 main_v4 ((fun a b => concatenate S16384x2048 1 [⟨S16384x1024, a⟩, ⟨S16384x1024, b⟩] concatenates_S16384x1024_S16384x1024_S16384x2048_d1) : (⟨S16384x1024, .f32⟩ : BufTy).Contents (Elt F) → (⟨S16384x1024, .f32⟩ : BufTy).Contents (Elt F) → (⟨S16384x2048, .f32⟩ : BufTy).Contents (Elt F)),
    unary main_arg3 main_v5 ((transpose S2048x1 [1, 0] · transposes_S1x2048_S2048x1_1_0) : (⟨S1x2048, .f32⟩ : BufTy).Contents (Elt F) → (⟨S2048x1, .f32⟩ : BufTy).Contents (Elt F)),
    binary main_v4 main_v5 main_v6 ((fun l r => Host.dotGeneral dot_S16384x2048_S2048x1_S16384x1_1_0_0_1_n_n none l r) : (⟨S16384x2048, .f32⟩ : BufTy).Contents (Elt F) → (⟨S2048x1, .f32⟩ : BufTy).Contents (Elt F) → (⟨S16384x1, .f32⟩ : BufTy).Contents (Elt F)),
    unary main_arg4 main_v7 (broadcastInDim S1x1 ![1] bcast_S1_S1x1_1 : (⟨S1, .f32⟩ : BufTy).Contents (Elt F) → (⟨S1x1, .f32⟩ : BufTy).Contents (Elt F)),
    unary main_v7 main_v8 (broadcastInDim S16384x1 ![0, 1] bcast_S1x1_S16384x1_0_1 : (⟨S1x1, .f32⟩ : BufTy).Contents (Elt F) → (⟨S16384x1, .f32⟩ : BufTy).Contents (Elt F)),
    binary main_v6 main_v8 main_v9 (addf : (⟨S16384x1, .f32⟩ : BufTy).Contents (Elt F) → (⟨S16384x1, .f32⟩ : BufTy).Contents (Elt F) → (⟨S16384x1, .f32⟩ : BufTy).Contents (Elt F)),
    unary main_v9 main_v10 (Host.negf : (⟨S16384x1, .f32⟩ : BufTy).Contents (Elt F) → (⟨S16384x1, .f32⟩ : BufTy).Contents (Elt F)),
    unary main_v10 main_v11 (Host.exp : (⟨S16384x1, .f32⟩ : BufTy).Contents (Elt F) → (⟨S16384x1, .f32⟩ : BufTy).Contents (Elt F)),
    nullary main_cst (constant S_ .f32 0x3F800000#32),
    unary main_cst main_v12 (broadcastInDim S16384x1 ![] bcast_S_S16384x1 : (⟨S_, .f32⟩ : BufTy).Contents (Elt F) → (⟨S16384x1, .f32⟩ : BufTy).Contents (Elt F)),
    binary main_v12 main_v11 main_v13 (addf : (⟨S16384x1, .f32⟩ : BufTy).Contents (Elt F) → (⟨S16384x1, .f32⟩ : BufTy).Contents (Elt F) → (⟨S16384x1, .f32⟩ : BufTy).Contents (Elt F)),
    nullary main_cst_0 (constant S_ .f32 0x3F800000#32),
    unary main_cst_0 main_v14 (broadcastInDim S16384x1 ![] bcast_S_S16384x1 : (⟨S_, .f32⟩ : BufTy).Contents (Elt F) → (⟨S16384x1, .f32⟩ : BufTy).Contents (Elt F)),
    binary main_v14 main_v13 main_v15 (Host.divf : (⟨S16384x1, .f32⟩ : BufTy).Contents (Elt F) → (⟨S16384x1, .f32⟩ : BufTy).Contents (Elt F) → (⟨S16384x1, .f32⟩ : BufTy).Contents (Elt F)),
    unary main_arg5 main_v16 ((transpose S2048x1 [1, 0] · transposes_S1x2048_S2048x1_1_0) : (⟨S1x2048, .f32⟩ : BufTy).Contents (Elt F) → (⟨S2048x1, .f32⟩ : BufTy).Contents (Elt F)),
    binary main_v4 main_v16 main_v17 ((fun l r => Host.dotGeneral dot_S16384x2048_S2048x1_S16384x1_1_0_0_1_n_n none l r) : (⟨S16384x2048, .f32⟩ : BufTy).Contents (Elt F) → (⟨S2048x1, .f32⟩ : BufTy).Contents (Elt F) → (⟨S16384x1, .f32⟩ : BufTy).Contents (Elt F)),
    unary main_arg6 main_v18 (broadcastInDim S1x1 ![1] bcast_S1_S1x1_1 : (⟨S1, .f32⟩ : BufTy).Contents (Elt F) → (⟨S1x1, .f32⟩ : BufTy).Contents (Elt F)),
    unary main_v18 main_v19 (broadcastInDim S16384x1 ![0, 1] bcast_S1x1_S16384x1_0_1 : (⟨S1x1, .f32⟩ : BufTy).Contents (Elt F) → (⟨S16384x1, .f32⟩ : BufTy).Contents (Elt F)),
    binary main_v17 main_v19 main_v20 (addf : (⟨S16384x1, .f32⟩ : BufTy).Contents (Elt F) → (⟨S16384x1, .f32⟩ : BufTy).Contents (Elt F) → (⟨S16384x1, .f32⟩ : BufTy).Contents (Elt F)),
    unary main_v20 main_v21 (Host.negf : (⟨S16384x1, .f32⟩ : BufTy).Contents (Elt F) → (⟨S16384x1, .f32⟩ : BufTy).Contents (Elt F)),
    unary main_v21 main_v22 (Host.exp : (⟨S16384x1, .f32⟩ : BufTy).Contents (Elt F) → (⟨S16384x1, .f32⟩ : BufTy).Contents (Elt F)),
    nullary main_cst_1 (constant S_ .f32 0x3F800000#32),
    unary main_cst_1 main_v23 (broadcastInDim S16384x1 ![] bcast_S_S16384x1 : (⟨S_, .f32⟩ : BufTy).Contents (Elt F) → (⟨S16384x1, .f32⟩ : BufTy).Contents (Elt F)),
    binary main_v23 main_v22 main_v24 (addf : (⟨S16384x1, .f32⟩ : BufTy).Contents (Elt F) → (⟨S16384x1, .f32⟩ : BufTy).Contents (Elt F) → (⟨S16384x1, .f32⟩ : BufTy).Contents (Elt F)),
    nullary main_cst_2 (constant S_ .f32 0x3F800000#32),
    unary main_cst_2 main_v25 (broadcastInDim S16384x1 ![] bcast_S_S16384x1 : (⟨S_, .f32⟩ : BufTy).Contents (Elt F) → (⟨S16384x1, .f32⟩ : BufTy).Contents (Elt F)),
    binary main_v25 main_v24 main_v26 (Host.divf : (⟨S16384x1, .f32⟩ : BufTy).Contents (Elt F) → (⟨S16384x1, .f32⟩ : BufTy).Contents (Elt F) → (⟨S16384x1, .f32⟩ : BufTy).Contents (Elt F)),
    binary main_v3 main_arg0 main_v27 ((fun l r => Host.dotGeneral dot_S16384x1024_S16384x1024_S1024x1024_0_0_1_1_n_n none l r) : (⟨S16384x1024, .f32⟩ : BufTy).Contents (Elt F) → (⟨S16384x1024, .f32⟩ : BufTy).Contents (Elt F) → (⟨S1024x1024, .f32⟩ : BufTy).Contents (Elt F)),
    nullary main_cst_3 (constant S_ .f32 0x46800000#32),
    unary main_cst_3 main_v28 (broadcastInDim S1024x1024 ![] bcast_S_S1024x1024 : (⟨S_, .f32⟩ : BufTy).Contents (Elt F) → (⟨S1024x1024, .f32⟩ : BufTy).Contents (Elt F)),
    binary main_v27 main_v28 main_v29 (Host.divf : (⟨S1024x1024, .f32⟩ : BufTy).Contents (Elt F) → (⟨S1024x1024, .f32⟩ : BufTy).Contents (Elt F) → (⟨S1024x1024, .f32⟩ : BufTy).Contents (Elt F)),
    nullary main_cst_4 (constant S_ .f32 0x00000000#32),
    binary main_v15 main_cst_4 main_v30 ((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)),
    nullary main_cst_5 (constant S_ .f32 0x46800000#32),
    binary main_v30 main_cst_5 main_v31 (Host.divf : (⟨S_, .f32⟩ : BufTy).Contents (Elt F) → (⟨S_, .f32⟩ : BufTy).Contents (Elt F) → (⟨S_, .f32⟩ : BufTy).Contents (Elt F)),
    unary main_v31 main_v32 (broadcastInDim S1024x1024 ![] bcast_S_S1024x1024 : (⟨S_, .f32⟩ : BufTy).Contents (Elt F) → (⟨S1024x1024, .f32⟩ : BufTy).Contents (Elt F)),
    binary main_v32 main_arg2 main_v33 (mulf : (⟨S1024x1024, .f32⟩ : BufTy).Contents (Elt F) → (⟨S1024x1024, .f32⟩ : BufTy).Contents (Elt F) → (⟨S1024x1024, .f32⟩ : BufTy).Contents (Elt F)),
    nullary main_cst_6 (constant S_ .f32 0x00000000#32),
    binary main_v26 main_cst_6 main_v34 ((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)),
    nullary main_cst_7 (constant S_ .f32 0x46800000#32),
    binary main_v34 main_cst_7 main_v35 (Host.divf : (⟨S_, .f32⟩ : BufTy).Contents (Elt F) → (⟨S_, .f32⟩ : BufTy).Contents (Elt F) → (⟨S_, .f32⟩ : BufTy).Contents (Elt F)),
    nullary main_cst_8 (constant S_ .f32 0x3DCCCCCD#32),
    binary main_v35 main_cst_8 main_v36 (mulf : (⟨S_, .f32⟩ : BufTy).Contents (Elt F) → (⟨S_, .f32⟩ : BufTy).Contents (Elt F) → (⟨S_, .f32⟩ : BufTy).Contents (Elt F)),
    unary main_v36 main_v37 (broadcastInDim S1024x1024 ![] bcast_S_S1024x1024 : (⟨S_, .f32⟩ : BufTy).Contents (Elt F) → (⟨S1024x1024, .f32⟩ : BufTy).Contents (Elt F)),
    binary main_v37 main_v29 main_v38 (mulf : (⟨S1024x1024, .f32⟩ : BufTy).Contents (Elt F) → (⟨S1024x1024, .f32⟩ : BufTy).Contents (Elt F) → (⟨S1024x1024, .f32⟩ : BufTy).Contents (Elt F)),
    binary main_v33 main_v38 main_v39 (addf : (⟨S1024x1024, .f32⟩ : BufTy).Contents (Elt F) → (⟨S1024x1024, .f32⟩ : BufTy).Contents (Elt F) → (⟨S1024x1024, .f32⟩ : BufTy).Contents (Elt F)),
    unary main_arg7 main_v40 ((transpose S1024x1 [1, 0] · transposes_S1x1024_S1024x1_1_0) : (⟨S1x1024, .f32⟩ : BufTy).Contents (Elt F) → (⟨S1024x1, .f32⟩ : BufTy).Contents (Elt F)),
    binary main_v1 main_v40 main_v41 ((fun l r => Host.dotGeneral dot_S16384x1024_S1024x1_S16384x1_1_0_0_1_n_n none l r) : (⟨S16384x1024, .f32⟩ : BufTy).Contents (Elt F) → (⟨S1024x1, .f32⟩ : BufTy).Contents (Elt F) → (⟨S16384x1, .f32⟩ : BufTy).Contents (Elt F)),
    unary main_arg8 main_v42 (broadcastInDim S1x1 ![1] bcast_S1_S1x1_1 : (⟨S1, .f32⟩ : BufTy).Contents (Elt F) → (⟨S1x1, .f32⟩ : BufTy).Contents (Elt F)),
    unary main_v42 main_v43 (broadcastInDim S16384x1 ![0, 1] bcast_S1x1_S16384x1_0_1 : (⟨S1x1, .f32⟩ : BufTy).Contents (Elt F) → (⟨S16384x1, .f32⟩ : BufTy).Contents (Elt F)),
    binary main_v41 main_v43 main_v44 (addf : (⟨S16384x1, .f32⟩ : BufTy).Contents (Elt F) → (⟨S16384x1, .f32⟩ : BufTy).Contents (Elt F) → (⟨S16384x1, .f32⟩ : BufTy).Contents (Elt F)),
    unary main_v44 main_v45 (Host.negf : (⟨S16384x1, .f32⟩ : BufTy).Contents (Elt F) → (⟨S16384x1, .f32⟩ : BufTy).Contents (Elt F)),
    unary main_v45 main_v46 (Host.exp : (⟨S16384x1, .f32⟩ : BufTy).Contents (Elt F) → (⟨S16384x1, .f32⟩ : BufTy).Contents (Elt F)),
    nullary main_cst_9 (constant S_ .f32 0x3F800000#32),
    unary main_cst_9 main_v47 (broadcastInDim S16384x1 ![] bcast_S_S16384x1 : (⟨S_, .f32⟩ : BufTy).Contents (Elt F) → (⟨S16384x1, .f32⟩ : BufTy).Contents (Elt F)),
    binary main_v47 main_v46 main_v48 (addf : (⟨S16384x1, .f32⟩ : BufTy).Contents (Elt F) → (⟨S16384x1, .f32⟩ : BufTy).Contents (Elt F) → (⟨S16384x1, .f32⟩ : BufTy).Contents (Elt F)),
    nullary main_cst_10 (constant S_ .f32 0x3F800000#32),
    unary main_cst_10 main_v49 (broadcastInDim S16384x1 ![] bcast_S_S16384x1 : (⟨S_, .f32⟩ : BufTy).Contents (Elt F) → (⟨S16384x1, .f32⟩ : BufTy).Contents (Elt F)),
    binary main_v49 main_v48 main_v50 (Host.divf : (⟨S16384x1, .f32⟩ : BufTy).Contents (Elt F) → (⟨S16384x1, .f32⟩ : BufTy).Contents (Elt F) → (⟨S16384x1, .f32⟩ : BufTy).Contents (Elt F)),
    unary main_v50 main_v51 (broadcastInDim S16384x1024 ![0, 1] bcast_S16384x1_S16384x1024_0_1 : (⟨S16384x1, .f32⟩ : BufTy).Contents (Elt F) → (⟨S16384x1024, .f32⟩ : BufTy).Contents (Elt F)),
    binary main_v51 main_v1 main_v52 (mulf : (⟨S16384x1024, .f32⟩ : BufTy).Contents (Elt F) → (⟨S16384x1024, .f32⟩ : BufTy).Contents (Elt F) → (⟨S16384x1024, .f32⟩ : BufTy).Contents (Elt F)),
    nullary main_cst_11 (constant S_ .f32 0x3F800000#32),
    unary main_cst_11 main_v53 (broadcastInDim S16384x1 ![] bcast_S_S16384x1 : (⟨S_, .f32⟩ : BufTy).Contents (Elt F) → (⟨S16384x1, .f32⟩ : BufTy).Contents (Elt F)),
    binary main_v53 main_v50 main_v54 (subf : (⟨S16384x1, .f32⟩ : BufTy).Contents (Elt F) → (⟨S16384x1, .f32⟩ : BufTy).Contents (Elt F) → (⟨S16384x1, .f32⟩ : BufTy).Contents (Elt F)),
    unary main_v54 main_v55 (broadcastInDim S16384x1024 ![0, 1] bcast_S16384x1_S16384x1024_0_1 : (⟨S16384x1, .f32⟩ : BufTy).Contents (Elt F) → (⟨S16384x1024, .f32⟩ : BufTy).Contents (Elt F)),
    binary main_v55 main_v2 main_v56 (mulf : (⟨S16384x1024, .f32⟩ : BufTy).Contents (Elt F) → (⟨S16384x1024, .f32⟩ : BufTy).Contents (Elt F) → (⟨S16384x1024, .f32⟩ : BufTy).Contents (Elt F)),
    binary main_v52 main_v56 main_v57 (addf : (⟨S16384x1024, .f32⟩ : BufTy).Contents (Elt F) → (⟨S16384x1024, .f32⟩ : BufTy).Contents (Elt F) → (⟨S16384x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., binary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., unary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub ..⟩

set_option maxRecDepth 8192 in
set_option maxHeartbeats 28400000 in
/-- On every device, from any memory with zero counters: every weakly fair execution of @main terminates with the
    first result at `tOut` and the second at `tNewM` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = RefTerm.tOut (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))
      ∧ r.2.mem ((c.tc : Thread nD τ).loc main_v39) = RefTerm.tNewM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v57).trans (by after_results_simp; rfl),
      (h c main_v39).trans (by
        after_results_simp
        repeat (first
          | rw [binary_result] | rw [unary_result]
          | (rw [binary_result_ne]; rotate_left; decide)
          | (rw [unary_result_ne]; rotate_left; decide)
          | (rw [nullary_result_ne]; rotate_left; decide))
        rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp)⟩)
    (run_seq scopedRefs_eq scopedSems_eq defs main (fun _ => ops) main_eq (fun _ => ops_sub) m ρ)

end Cert.ReferenceIdeal.RefRun

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.CellSpec.lean ====
/-
  The gated memory cell, as two functions of the argument arrays on the extended reals.

  For a batch of 16384 rows `x b` of width 1024:
    proj b h  = ∑ d, x b d · V_w h d                (the projection v = x · V_wᵀ)
    pred b j  = ∑ d, x b d · M d j                  (the memory's prediction y = x · M)
    gate b    = s((∑ h, proj b h · g (h) + ∑ d, x b d · g (1024 + d)) + bias)   for the forget and update gates,
                whose 2048 weights meet the row (proj b, x b)
    mix b     = s(∑ h, proj b h · sm_w h + sm_b)
    out b j   = mix b · proj b j + (1 − mix b) · pred b j
    hebb h d  = ∑ b, (proj b h − pred b h) · x b d
    newM h d  = (∑ b forget b / 16384) · M h d + ((∑ b update b / 16384) · 0.1) · (hebb h d / 16384)
  with s the logistic function.  Also here: the three regroupings of a finite sum that join a tiled
  evaluation to this one — 2048 = 1024 + 1024, 16384 rows = 16 tiles of 1024, 16 tiles = 8 + 8 —, each valid in
  any commutative additive monoid, so on the extended reals with no finiteness of the data.
-/
import Idealize.ShloMosaic.PureOps.Ideal
import Idealize.ShloMosaic.Lib.ValueIdx
import proofs.«126602_j18769007084097_2_alg».proof.Proof.LibBlockSum

noncomputable section

open scoped BigOperators

namespace Cert.CellSpec

open Idealize.ShloMosaic Idealize.ShloMosaic.ValueIdx

abbrev SX : Shape := ⟨2, ![16384, 1024]⟩
abbrev SW : Shape := ⟨2, ![1024, 1024]⟩
abbrev SG : Shape := ⟨2, ![1, 2048]⟩
abbrev SB : Shape := ⟨1, ![1]⟩
abbrev SS : Shape := ⟨2, ![1, 1024]⟩

/-- Gate weight `h` of the first 1024 (those that meet the projection). -/
abbrev lo (h : Fin 1024) : Fin 2048 := ⟨h.val, by have := h.isLt; omega⟩
/-- Gate weight `1024 + d` of the last 1024 (those that meet the input row). -/
abbrev hi (d : Fin 1024) : Fin 2048 := ⟨1024 + d.val, by have := d.isLt; omega⟩
/-- The one index of an axis of extent 1. -/
abbrev z1 : Fin 1 := ⟨0, Nat.one_pos⟩

/-- The f32 words of 1, 16384 and 0.1, kept as words: both programs spell the same ones. -/
abbrev one : EReal := Ideal.ofBits .f32 0x3F800000#32
abbrev batch : EReal := Ideal.ofBits .f32 0x46800000#32
abbrev rate : EReal := Ideal.ofBits .f32 0x3DCCCCCD#32

/-- Row `p` of tile `k`: row `1024 k + p` of the batch (total in `k`; the 16 tiles are `k < 16`). -/
def rowOf (k : ℕ) (p : Fin 1024) : Fin 16384 := ⟨(1024 * k + p.val) % 16384, Nat.mod_lt _ (by norm_num)⟩

theorem rowOf_val {k : ℕ} (hk : k < 16) (p : Fin 1024) : (rowOf k p).val = 1024 * k + p.val := by
  have := p.isLt
  exact Nat.mod_eq_of_lt (by omega)

section
variable (x : SX.Idx → EReal) (Vw M : SW.Idx → EReal) (gw : SG.Idx → EReal) (gb : SB.Idx → EReal)
  (smw : SS.Idx → EReal) (smb : SB.Idx → EReal)

def proj (b : Fin 16384) (h : Fin 1024) : EReal := ∑ d : Fin 1024, x (ix2 b d) * Vw (ix2 h d)

def pred (b : Fin 16384) (j : Fin 1024) : EReal := ∑ d : Fin 1024, x (ix2 b d) * M (ix2 d j)

def gateLogit (b : Fin 16384) : EReal :=
  (∑ h : Fin 1024, proj x Vw b h * gw (ix2 z1 (lo h)) + ∑ d : Fin 1024, x (ix2 b d) * gw (ix2 z1 (hi d))) + gb (ix1 z1)

def gate (b : Fin 16384) : EReal := Ideal.logistic (gateLogit x Vw gw gb b)

def mixLogit (b : Fin 16384) : EReal := (∑ h : Fin 1024, proj x Vw b h * smw (ix2 z1 h)) + smb (ix1 z1)

def mix (b : Fin 16384) : EReal := Ideal.logistic (mixLogit x Vw smw smb b)

def outAt (b : Fin 16384) (j : Fin 1024) : EReal :=
  mix x Vw smw smb b * proj x Vw b j + (one - mix x Vw smw smb b) * pred x M b j

def hebb (h d : Fin 1024) : EReal := ∑ b : Fin 16384, (proj x Vw b h - pred x M b h) * x (ix2 b d)

def gateSum : EReal := ∑ b : Fin 16384, gate x Vw gw gb b

end

/-- The first result: the blended rows. -/
def out (x : SX.Idx → EReal) (Vw M : SW.Idx → EReal) (smw : SS.Idx → EReal) (smb : SB.Idx → EReal) : SX.Idx → EReal :=
  fun i => outAt x Vw M smw smb (i 0) (i 1)

/-- The second result: the updated memory. -/
def newM (x : SX.Idx → EReal) (Vw M : SW.Idx → EReal) (fgw : SG.Idx → EReal) (fgb : SB.Idx → EReal)
    (ugw : SG.Idx → EReal) (ugb : SB.Idx → EReal) : SW.Idx → EReal :=
  fun i => Ideal.div (gateSum x Vw fgw fgb) batch * M i
    + (Ideal.div (gateSum x Vw ugw ugb) batch * rate) * Ideal.div (hebb x Vw M (i 0) (i 1)) batch

/-! ## Regrouping a finite sum -/

/-- 2048 terms are the first 1024 and the last 1024. -/
theorem sum_lo_hi {β : Type*} [AddCommMonoid β] (f : Fin 2048 → β) :
    ∑ k : Fin 2048, f k = ∑ h : Fin 1024, f (lo h) + ∑ d : Fin 1024, f (hi d) := by
  have e := Fin.sum_univ_add (a := 1024) (b := 1024) (fun k : Fin (1024 + 1024) => f ⟨k.val, k.isLt⟩)
  exact e.trans (congrArg₂ (· + ·) (Finset.sum_congr rfl fun h _ => congrArg f (Fin.ext rfl))
    (Finset.sum_congr rfl fun d _ => congrArg f (Fin.ext rfl)))

/-- The batch is 16 tiles of 1024 rows. -/
theorem sum_tiles {β : Type*} [AddCommMonoid β] (f : Fin 16384 → β) :
    ∑ b : Fin 16384, f b = ∑ s : Fin 16, ∑ p : Fin 1024, f (rowOf s.val p) := by
  refine (Cert.Lib.BlockSum.sum_blocks 16 1024 f).trans ?_
  refine Finset.sum_congr rfl fun s _ => Finset.sum_congr rfl fun p _ => congrArg f (Fin.ext ?_)
  rw [rowOf_val s.isLt]
  show s.val * 1024 + p.val = 1024 * s.val + p.val
  rw [Nat.mul_comm]

/-- 16 tiles are the first 8 and the last 8. -/
theorem sum_halves {β : Type*} [AddCommMonoid β] (T : ℕ → β) :
    (∑ j ∈ Finset.range 8, T j) + (∑ j ∈ Finset.range 8, T (8 + j)) = ∑ s : Fin 16, T s.val := by
  rw [Finset.sum_range (n := 16) (f := T) |>.symm]
  rw [show (16 : ℕ) = 8 + 8 from rfl, Finset.sum_range_add]

/-- A sum over the whole batch, from the two halves' sums of the tiles' sums. -/
theorem sum_batch {β : Type*} [AddCommMonoid β] (f : Fin 16384 → β) :
    (∑ j ∈ Finset.range 8, ∑ p : Fin 1024, f (rowOf j p)) + (∑ j ∈ Finset.range 8, ∑ p : Fin 1024, f (rowOf (8 + j) p))
      = ∑ b : Fin 16384, f b :=
  (sum_halves fun k => ∑ p : Fin 1024, f (rowOf k p)).trans (sum_tiles f).symm

end Cert.CellSpec

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibFirstAxesDot.lean ====
/-
  A matrix product contracted on the FIRST axes of both operands, read at an entry, on the extended reals.

  For the dimension numbers of a `K×M` by `K×N` product that contracts the operands' first axes (`lᵀ · r`; no batch
  axis), the sum over the contraction index of the operands' products at output entry `(a, b)` is
  `∑ k, l (k, a) * r (k, b)`: the contraction index is its one coordinate `k`, both operands are read at row `k`, the
  left at column `a`, the right at column `b`. From it: a vector-unit matrix product into the zero accumulator
  (`matmul_zero_apply`) and the host's `dot_general` (`dotGeneral_apply`) at `(a, b)`. The record is generic in the
  extents and in its side condition, so a printed program's own record of these dimension numbers is `firstAxes` of
  its literal sizes by `rfl`.
-/
import Idealize.ShloMosaic.Lib.ValueIdx
import Idealize.ShloMosaic.PureOps.Ideal.Laws

noncomputable section

open scoped BigOperators

namespace Cert.Lib.FirstAxesDot

open Idealize.ShloMosaic Idealize.ShloMosaic.ValueIdx

/-- `<[0], [0], [1], [1], [0, 1, 1, 1], [], []>`: `K×M` by `K×N`, both operands contracted on their first axis. -/
def firstAxes (K M N : ℕ)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : ℕ} {φ₁ φ₂ : FTy}
variable (wf : DotDims.WF ⟨2, ![K, M]⟩ ⟨2, ![K, N]⟩ ⟨2, ![M, N]⟩ [0] [0] [1] [1] [] [])

/-- Left operand, axis 1: the output's row. -/
theorem lhs1 (i : (⟨2, ![M, N]⟩ : Shape).Idx) (q : (firstAxes K M N wf).contr.Idx) :
    ((firstAxes K M N wf).lhsIdx i q 1).val = (i 0).val := by
  unfold DotDims.lhsIdx
  rw [dif_neg (show ¬(1 : Fin (⟨2, ![K, M]⟩ : Shape).rank) ∈ (firstAxes K M N wf).lhsBatch by simp [firstAxes]),
    dif_pos (show (1 : Fin (⟨2, ![K, M]⟩ : Shape).rank) ∈ (firstAxes K M N wf).lhsNonContracting by simp [firstAxes])]
  rfl

/-- Right operand, axis 1: the output's column. -/
theorem rhs1 (i : (⟨2, ![M, N]⟩ : Shape).Idx) (q : (firstAxes K M N wf).contr.Idx) :
    ((firstAxes K M N wf).rhsIdx i q 1).val = (i 1).val := by
  unfold DotDims.rhsIdx
  rw [dif_neg (show ¬(1 : Fin (⟨2, ![K, N]⟩ : Shape).rank) ∈ (firstAxes K M N wf).rhsBatch by simp [firstAxes]),
    dif_pos (show (1 : Fin (⟨2, ![K, N]⟩ : Shape).rank) ∈ (firstAxes K M N wf).rhsNonContracting by simp [firstAxes])]
  rfl

/-- The left operand's index at output `(a, b)` and contraction coordinate `k` is `(k, a)`. -/
theorem lhsIdx_first (a : Fin M) (b : Fin N) (k : Fin K) :
    (firstAxes K M N wf).lhsIdx (ix2 a b) ((contrEquiv1 (firstAxes K M N wf) K rfl rfl).symm k) = ix2 k a := by
  have hk := contrEquiv1_symm_val (firstAxes K M N wf) K rfl rfl k
  exact funext fun c => Fin.ext (by
    match c with
    | ⟨0, _⟩ => exact ((firstAxes K M N wf).lhsIdx_val_of_single rfl _ _).trans hk
    | ⟨1, _⟩ => exact lhs1 wf _ _)

/-- The right operand's index at output `(a, b)` and contraction coordinate `k` is `(k, b)`. -/
theorem rhsIdx_first (a : Fin M) (b : Fin N) (k : Fin K) :
    (firstAxes K M N wf).rhsIdx (ix2 a b) ((contrEquiv1 (firstAxes K M N wf) K rfl rfl).symm k) = ix2 k b := by
  have hk := contrEquiv1_symm_val (firstAxes K M N wf) K rfl rfl k
  exact funext fun c => Fin.ext (by
    match c with
    | ⟨0, _⟩ => exact ((firstAxes K M N wf).rhsIdx_val_of_single rfl _ _).trans hk
    | ⟨1, _⟩ => exact rhs1 wf _ _)

/-- The contraction's sum at output `(a, b)` is the sum over the contracted coordinate. -/
theorem sum_first (l : (⟨2, ![K, M]⟩ : Shape).Idx → EReal) (r : (⟨2, ![K, N]⟩ : Shape).Idx → EReal) (a : Fin M) (b : Fin N) :
    ∑ q : (firstAxes K M N wf).contr.Idx,
        l ((firstAxes K M N wf).lhsIdx (ix2 a b) q) * r ((firstAxes K M N wf).rhsIdx (ix2 a b) q)
      = ∑ k : Fin K, l (ix2 k a) * r (ix2 k b) := by
  rw [← Equiv.sum_comp (contrEquiv1 (firstAxes K M N wf) K rfl rfl).symm]
  refine Finset.sum_congr rfl fun k _ => ?_
  rw [lhsIdx_first, rhsIdx_first]

/-- A first-axes product on the vector unit into the zero accumulator, at entry `(a, b)`. -/
theorem matmul_zero_apply (prec : Option ContractPrecision) (l : FVec Ideal ⟨2, ![K, M]⟩ φ₁) (r : FVec Ideal ⟨2, ![K, N]⟩ φ₂)
    (a : Fin M) (b : Fin N) :
    FloatOps.matmul (firstAxes K M N wf) prec l r (constant ⟨2, ![M, N]⟩ .f32 0x00000000#32) (ix2 a b)
      = ∑ k : Fin K, l (ix2 k a) * r (ix2 k b) := by
  rw [Ideal.matmul_constant_zero_apply]
  exact sum_first wf l r a b

/-- The host's `dot_general` with these dimension numbers at entry `(a, b)`, whatever its schedule. -/
theorem dotGeneral_apply (prec : Option ContractPrecision) (sched : HostSchedule) (l : FVec Ideal ⟨2, ![K, M]⟩ φ₁)
    (r : FVec Ideal ⟨2, ![K, N]⟩ φ₂) (a : Fin M) (b : Fin N) :
    FloatOps.dotGeneral (firstAxes K M N wf) prec sched l r (ix2 a b) = ∑ k : Fin K, l (ix2 k a) * r (ix2 k b) := by
  rw [Ideal.dotGeneral_apply]
  exact sum_first wf l r a b

end Cert.Lib.FirstAxesDot

end
-- ==== Proof.ReferenceStages.lean ====
/-
  The reference's stages, read entry by entry on the extended reals.

  Every stage of the reference is read at explicit coordinates and identified with the specification's function of
  the same name:
    projection   (x · V_wᵀ)(b, h)              = proj b h      the transposed weight is read back at (h, d)
    prediction   (x · M)(b, j)                 = pred b j
    joined row   (projection | x)(b, k)         = proj b k for k < 1024, x b (k − 1024) from 1024 on
    a gate       1 / (1 + exp (−z b))           = gate b        z b the joined row against the gate's 2048 weights
                                                                plus the bias; the sum over 2048 places is the sum over
                                                                the first 1024 plus the sum over the last 1024
    a mean       (0 + ∑ over [16384, 1]) / 16384 = (∑ b, g b) / 16384
    Hebbian term ((projection − prediction)ᵀ · x)(h, d) / 16384 = hebb h d / 16384
    mixing gate  1 / (1 + exp (−(projection · sm_w + sm_b))) = mix b
  and from them the two results at an index.  The words of 16384 and 0.1 are never evaluated: both sides carry the
  same words.  The word of 1 is evaluated once, where 1 / (1 + exp (−z)) has to be recognised as the logistic function;
  the zero word once, where a sum starts from it.
-/
import proofs.«126602_j18769007084097_2_alg».proof.Proof.ReferenceTerm
import proofs.«126602_j18769007084097_2_alg».proof.Proof.CellSpec
import proofs.«126602_j18769007084097_2_alg».proof.Proof.LibPlainDot
import proofs.«126602_j18769007084097_2_alg».proof.Proof.LibFirstAxesDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.RefTerm Idealize.ShloMosaic
  Idealize.ShloMosaic.ValueIdx

/-! ## Words and the small layout operations -/

/-- The f32 word 0x3F800000 is the extended real 1. -/
theorem one_word : Ideal.ofBits .f32 0x3F800000#32 = (1 : EReal) := by
  simp [Ideal.ofBits, Ideal.ieee, -EReal.coe_mul]; norm_num

/-- A scalar spread over any shape reads the scalar everywhere. -/
theorem scalar_spread {t : Shape} (dims : Fin S_.rank → Fin t.rank) (hb : S_.BroadcastsInDim t dims)
    (v : FVec Ideal S_ .f32) (j : t.Idx) : broadcastInDim t dims hb v j = v ix0 :=
  broadcastInDim_apply dims hb v j ix0 (fun a => a.elim0)

/-- A word spread over any shape reads the word's value everywhere. -/
theorem word_spread {t : Shape} (dims : Fin S_.rank → Fin t.rank) (hb : S_.BroadcastsInDim t dims)
    (w : BitVec 32) (j : t.Idx) :
    broadcastInDim t dims hb (constant (F := Ideal) S_ .f32 w) j = Ideal.ofBits .f32 w :=
  scalar_spread dims hb _ j

/-- A [16384, 1] column spread along the rows reads, at (b, j), the column at b. -/
theorem column_spread (g : FVec Ideal S16384x1 .f32) (b : Fin 16384) (j : Fin 1024) :
    broadcastInDim S16384x1024 ![0, 1] bcast_S16384x1_S16384x1024_0_1 g (ix2 b j) = g (ix2 b CellSpec.z1) :=
  broadcastInDim_apply _ bcast_S16384x1_S16384x1024_0_1 g (ix2 b j) (ix2 b CellSpec.z1) (fun a =>
    match a with
    | ⟨0, _⟩ => (if_neg (show ¬ (16384 : ℕ) = 1 by decide)).symm
    | ⟨1, _⟩ => (if_pos rfl).symm)

/-- A bias of one entry spread down the column reads that entry at every row. -/
theorem tBias_at (gb : FVec Ideal S1 .f32) (b : Fin 16384) :
    tBias (F := Ideal) gb (ix2 b CellSpec.z1) = gb (ix1 CellSpec.z1) := by
  unfold tBias
  refine (broadcastInDim_apply _ bcast_S1x1_S16384x1_0_1 _ (ix2 b CellSpec.z1) (ix2 CellSpec.z1 CellSpec.z1) (fun a =>
    match a with
    | ⟨0, _⟩ => (if_pos rfl).symm
    | ⟨1, _⟩ => (if_pos rfl).symm)).trans ?_
  exact broadcastInDim_apply _ bcast_S1_S1x1_1 gb (ix2 CellSpec.z1 CellSpec.z1) (ix1 CellSpec.z1) (fun a =>
    match a with
    | ⟨0, _⟩ => (if_pos rfl).symm)

/-- One over one plus the exponential of the negation is the logistic function, entry by entry. -/
theorem tSigmoid_at (z : FVec Ideal S16384x1 .f32) (i : S16384x1.Idx) :
    tSigmoid (F := Ideal) z i = Ideal.logistic (z i) := by
  show Ideal.div (broadcastInDim S16384x1 ![] bcast_S_S16384x1 (constant (F := Ideal) S_ .f32 0x3F800000#32) i)
      (broadcastInDim S16384x1 ![] bcast_S_S16384x1 (constant (F := Ideal) S_ .f32 0x3F800000#32) i
        + Ideal.exp (-(z i))) = _
  rw [word_spread, one_word]
  rfl

/-! ## The two products with the input -/

/-- The projection: row b of x against row h of V_w (the weight is transposed, then contracted on its rows). -/
theorem tProj_at (a0 : FVec Ideal S16384x1024 .f32) (a1 : FVec Ideal S1024x1024 .f32) (b : Fin 16384) (h : Fin 1024) :
    tProj (F := Ideal) a0 a1 (ix2 b h) = CellSpec.proj a0 a1 b h := by
  unfold tProj
  refine (Cert.Lib.PlainDot.dotGeneral_apply (M := 16384) (K := 1024) (N := 1024) none _ a0 _ b h).trans ?_
  unfold CellSpec.proj
  refine Finset.sum_congr rfl fun k _ => ?_
  rw [transpose_ix2_apply]

/-- The memory's prediction: row b of x against column j of M. -/
theorem tPred_at (a0 : FVec Ideal S16384x1024 .f32) (a2 : FVec Ideal S1024x1024 .f32) (b : Fin 16384) (j : Fin 1024) :
    tPred (F := Ideal) a0 a2 (ix2 b j) = CellSpec.pred a0 a2 b j := by
  unfold tPred
  exact Cert.Lib.PlainDot.dotGeneral_apply (M := 16384) (K := 1024) (N := 1024) none _ a0 a2 b j

/-! ## The joined row (projection | input) -/

/-- At one of its first 1024 places the joined row is the projection. -/
theorem tCat_lo (a0 : FVec Ideal S16384x1024 .f32) (a1 : FVec Ideal S1024x1024 .f32) (b : Fin 16384) (h : Fin 1024) :
    tCat (F := Ideal) a0 a1 (ix2 b (CellSpec.lo h)) = CellSpec.proj a0 a1 b h := by
  unfold tCat
  refine (concatenate_pair_apply_left (t := S16384x2048) (s₁ := S16384x1024) (s₂ := S16384x1024) 1
    (tProj (F := Ideal) a0 a1) a0 concatenates_S16384x1024_S16384x1024_S16384x2048_d1
    (ix2 b (CellSpec.lo h)) rfl (ix2 b h) (fun a =>
      match a with
      | ⟨0, _⟩ => rfl
      | ⟨1, _⟩ => rfl)).trans ?_
  exact tProj_at a0 a1 b h

/-- At one of its last 1024 places the joined row is the input row. -/
theorem tCat_hi (a0 : FVec Ideal S16384x1024 .f32) (a1 : FVec Ideal S1024x1024 .f32) (b : Fin 16384) (d : Fin 1024) :
    tCat (F := Ideal) a0 a1 (ix2 b (CellSpec.hi d)) = a0 (ix2 b d) := by
  unfold tCat
  exact concatenate_pair_apply_right (t := S16384x2048) (s₁ := S16384x1024) (s₂ := S16384x1024) 1
    (tProj (F := Ideal) a0 a1) a0 concatenates_S16384x1024_S16384x1024_S16384x2048_d1
    (ix2 b (CellSpec.hi d)) rfl rfl (ix2 b d)
    (fun a ha =>
      match a with
      | ⟨0, _⟩ => rfl
      | ⟨1, _⟩ => absurd rfl ha)
    (by show d.val + 1024 = 1024 + d.val; omega)

/-! ## A gate (forget or update) -/

/-- The joined row against a gate's 2048 weights, transposed to a column: the first 1024 weights meet the projection,
    the last 1024 the input row. -/
theorem gate_contraction (a0 : FVec Ideal S16384x1024 .f32) (a1 : FVec Ideal S1024x1024 .f32)
    (gw : FVec Ideal S1x2048 .f32) (b : Fin 16384) :
    Host.dotGeneral (F := Ideal) dot_S16384x2048_S2048x1_S16384x1_1_0_0_1_n_n none (tCat (F := Ideal) a0 a1)
        (transpose S2048x1 [1, 0] gw transposes_S1x2048_S2048x1_1_0) (ix2 b CellSpec.z1)
      = ∑ h : Fin 1024, CellSpec.proj a0 a1 b h * gw (ix2 CellSpec.z1 (CellSpec.lo h))
        + ∑ d : Fin 1024, a0 (ix2 b d) * gw (ix2 CellSpec.z1 (CellSpec.hi d)) := by
  refine (Cert.Lib.PlainDot.dotGeneral_apply (M := 16384) (K := 2048) (N := 1) none _ _ _ b CellSpec.z1).trans ?_
  rw [CellSpec.sum_lo_hi]
  refine congrArg₂ (· + ·) (Finset.sum_congr rfl fun h _ => ?_) (Finset.sum_congr rfl fun d _ => ?_)
  · rw [tCat_lo, transpose_ix2_apply]
  · rw [tCat_hi, transpose_ix2_apply]

/-- A gate at row b: the logistic function of the contraction plus the bias. -/
theorem tGate_at (a0 : FVec Ideal S16384x1024 .f32) (a1 : FVec Ideal S1024x1024 .f32) (gw : FVec Ideal S1x2048 .f32)
    (gb : FVec Ideal S1 .f32) (b : Fin 16384) :
    tGate (F := Ideal) a0 a1 gw gb (ix2 b CellSpec.z1) = CellSpec.gate a0 a1 gw gb b := by
  unfold tGate
  rw [tSigmoid_at, addf_apply, gate_contraction, tBias_at]
  rfl

/-- The mean of a column over the batch: zero plus the sum of its 16384 entries, over the 16384 word. -/
theorem tMean_at (g : FVec Ideal S16384x1 .f32) (i : S_.Idx) :
    tMean (F := Ideal) g i = Ideal.div (∑ b : Fin 16384, g (ix2 b CellSpec.z1)) CellSpec.batch := by
  show Ideal.div (Ideal.hostReduceAdd reducesTo_S16384x1_S_d0_1 g (Ideal.ofBits .f32 0x00000000#32) i) CellSpec.batch = _
  rw [Ideal.hostReduceAdd_total reducesTo_S16384x1_S_d0_1 (fun a => a.elim0), Ideal.ofBits_zero_f32, zero_add, sum_idx2]
  refine congrArg (fun s => Ideal.div s CellSpec.batch) (Finset.sum_congr rfl fun b _ => ?_)
  exact (Fin.sum_univ_one _).trans rfl

/-! ## The Hebbian term -/

/-- The error (projection less prediction), transposed against the input over the batch, over the 16384 word. -/
theorem tHebb_at (a0 : FVec Ideal S16384x1024 .f32) (a1 a2 : FVec Ideal S1024x1024 .f32) (h d : Fin 1024) :
    tHebb (F := Ideal) a0 a1 a2 (ix2 h d) = Ideal.div (CellSpec.hebb a0 a1 a2 h d) CellSpec.batch := by
  show Ideal.div (Host.dotGeneral (F := Ideal) dot_S16384x1024_S16384x1024_S1024x1024_0_0_1_1_n_n none
        (subf (tProj (F := Ideal) a0 a1) (tPred (F := Ideal) a0 a2)) a0 (ix2 h d))
      (broadcastInDim S1024x1024 ![] bcast_S_S1024x1024 (constant (F := Ideal) S_ .f32 0x46800000#32) (ix2 h d)) = _
  rw [word_spread]
  refine congrArg (fun s => Ideal.div s CellSpec.batch) ?_
  refine (Cert.Lib.FirstAxesDot.dotGeneral_apply (K := 16384) (M := 1024) (N := 1024) _ none _
    (subf (tProj (F := Ideal) a0 a1) (tPred (F := Ideal) a0 a2)) a0 h d).trans ?_
  unfold CellSpec.hebb
  refine Finset.sum_congr rfl fun k _ => ?_
  rw [subf_apply, tProj_at, tPred_at]

/-! ## The mixing gate and the two results at an index -/

/-- The mixing gate at row b: the logistic function of the projection against the mixing weights plus the bias. -/
theorem tMix_at (a0 : FVec Ideal S16384x1024 .f32) (a1 : FVec Ideal S1024x1024 .f32) (a7 : FVec Ideal S1x1024 .f32)
    (a8 : FVec Ideal S1 .f32) (b : Fin 16384) :
    tMix (F := Ideal) a0 a1 a7 a8 (ix2 b CellSpec.z1) = CellSpec.mix a0 a1 a7 a8 b := by
  unfold tMix
  rw [tSigmoid_at, addf_apply, tBias_at]
  show _ = Ideal.logistic ((∑ h : Fin 1024, CellSpec.proj a0 a1 b h * a7 (ix2 CellSpec.z1 h)) + a8 (ix1 CellSpec.z1))
  refine congrArg (fun s => Ideal.logistic (s + a8 (ix1 CellSpec.z1))) ?_
  refine (Cert.Lib.PlainDot.dotGeneral_apply (M := 16384) (K := 1024) (N := 1) none _ _ _ b CellSpec.z1).trans ?_
  refine Finset.sum_congr rfl fun k _ => ?_
  rw [tProj_at, transpose_ix2_apply]

/-- The blended row at (b, j). -/
theorem tOut_at (a0 : FVec Ideal S16384x1024 .f32) (a1 a2 : FVec Ideal S1024x1024 .f32) (a7 : FVec Ideal S1x1024 .f32)
    (a8 : FVec Ideal S1 .f32) (b : Fin 16384) (j : Fin 1024) :
    tOut (F := Ideal) a0 a1 a2 a7 a8 (ix2 b j) = CellSpec.outAt a0 a1 a2 a7 a8 b j := by
  show broadcastInDim S16384x1024 ![0, 1] bcast_S16384x1_S16384x1024_0_1 (tMix (F := Ideal) a0 a1 a7 a8) (ix2 b j)
        * tProj (F := Ideal) a0 a1 (ix2 b j)
      + broadcastInDim S16384x1024 ![0, 1] bcast_S16384x1_S16384x1024_0_1
          (subf (broadcastInDim S16384x1 ![] bcast_S_S16384x1 (constant (F := Ideal) S_ .f32 0x3F800000#32))
            (tMix (F := Ideal) a0 a1 a7 a8)) (ix2 b j)
        * tPred (F := Ideal) a0 a2 (ix2 b j) = _
  rw [column_spread, column_spread, subf_apply, word_spread, tMix_at, tProj_at, tPred_at]
  rfl

/-- The updated memory at (h, d). -/
theorem tNewM_at (a0 : FVec Ideal S16384x1024 .f32) (a1 a2 : FVec Ideal S1024x1024 .f32) (a3 : FVec Ideal S1x2048 .f32)
    (a4 : FVec Ideal S1 .f32) (a5 : FVec Ideal S1x2048 .f32) (a6 : FVec Ideal S1 .f32) (h d : Fin 1024) :
    tNewM (F := Ideal) a0 a1 a2 a3 a4 a5 a6 (ix2 h d) = CellSpec.newM a0 a1 a2 a3 a4 a5 a6 (ix2 h d) := by
  show broadcastInDim S1024x1024 ![] bcast_S_S1024x1024 (tMean (F := Ideal) (tGate (F := Ideal) a0 a1 a3 a4)) (ix2 h d)
        * a2 (ix2 h d)
      + broadcastInDim S1024x1024 ![] bcast_S_S1024x1024
          (mulf (tMean (F := Ideal) (tGate (F := Ideal) a0 a1 a5 a6)) (constant (F := Ideal) S_ .f32 0x3DCCCCCD#32))
          (ix2 h d)
        * tHebb (F := Ideal) a0 a1 a2 (ix2 h d) = _
  rw [scalar_spread, scalar_spread, mulf_apply, constant_apply, tMean_at, tMean_at, tHebb_at]
  simp only [tGate_at]
  rfl

end Cert.ReferenceIdeal.RefValue

end
-- ==== Proof.ReferenceValue.lean ====
/-
  The reference's two results are the specification's two functions.

  As functions of the argument arrays, on the extended reals: the first result is out (the blended rows
  mix · projection + (1 − mix) · prediction) and the second is newM (mean(forget) · M + (mean(update) · 0.1) · Hebbian term / 16384).
  Each is one function extensionality step over the stage readings at an index.
-/
import proofs.«126602_j18769007084097_2_alg».proof.Proof.ReferenceStages

noncomputable section

namespace Cert.ReferenceIdeal.RefValue

open Cert.ReferenceIdeal Cert.ReferenceIdeal.Gen Cert.ReferenceIdeal.RefTerm Idealize.ShloMosaic
  Idealize.ShloMosaic.ValueIdx

/-- The reference's first result, as a function of the arguments, is the specification's blended rows. -/
theorem tOut_eq_out (a0 : FVec Ideal S16384x1024 .f32) (a1 a2 : FVec Ideal S1024x1024 .f32)
    (a7 : FVec Ideal S1x1024 .f32) (a8 : FVec Ideal S1 .f32) :
    tOut (F := Ideal) a0 a1 a2 a7 a8 = Cert.CellSpec.out a0 a1 a2 a7 a8 := by
  funext i
  obtain ⟨b, j, rfl⟩ : ∃ (b : Fin 16384) (j : Fin 1024), i = ix2 b j := ⟨i 0, i 1, eq_ix2 i⟩
  exact tOut_at a0 a1 a2 a7 a8 b j

/-- The reference's second result, as a function of the arguments, is the specification's updated memory. -/
theorem tNewM_eq_newM (a0 : FVec Ideal S16384x1024 .f32) (a1 a2 : FVec Ideal S1024x1024 .f32)
    (a3 : FVec Ideal S1x2048 .f32) (a4 : FVec Ideal S1 .f32) (a5 : FVec Ideal S1x2048 .f32) (a6 : FVec Ideal S1 .f32) :
    tNewM (F := Ideal) a0 a1 a2 a3 a4 a5 a6 = Cert.CellSpec.newM a0 a1 a2 a3 a4 a5 a6 := by
  funext i
  obtain ⟨h, d, rfl⟩ : ∃ (h d : Fin 1024), i = ix2 h d := ⟨i 0, i 1, eq_ix2 i⟩
  exact tNewM_at a0 a1 a2 a3 a4 a5 a6 h d

end Cert.ReferenceIdeal.RefValue

end
-- ==== Proof.LibColumnScatter.lean ====
/-
  Column writes by `stablehlo.scatter`: what the row-major fold of a "set" scatter leaves at one entry, and the
  scatter that writes a rank-1 vector into one column of a rank-2 array, read at an entry.
-/
import Idealize.ShloMosaic.Lib.ValueIdx
import Idealize.ShloMosaic.PureOps.ShapeOps

namespace Cert.Lib.ColumnScatter

open Idealize.ShloMosaic Idealize.ShloMosaic.ValueIdx

section Fold
variable {s si u : Shape} {α : Type} {w : Nat}

/-- One step of the scatter's fold: the update at row-major position `n` replaces, by the body `f`, the entry its
    result index names (nothing when it falls outside the operand). -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

/-- The scatter is the left fold of `step` over the update positions in row-major order. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update does not land on entry `i` leaves that entry as it was. -/
theorem step_of_ne (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  unfold step
  cases hr : d.resultIdx? (u.rowMajor.symm n) idx with
  | none => rfl
  | some i0 =>
    have hne : i ≠ i0 := fun e => h (by rw [hr, e])
    simp only [if_neg hne]

/-- A "set" step whose update lands on entry `i` leaves the update there. -/
theorem step_set_of_eq (d : ScatterDims s si u) (idx : IVec si w) (upd : u.Idx → α) (r : s.Idx → α)
    (n : Fin u.numel) (i : s.Idx) (h : d.resultIdx? (u.rowMajor.symm n) idx = some i) :
    step d (fun _ b => b) idx upd r n i = upd (u.rowMajor.symm n) := by
  unfold step
  rw [h]
  simp only [if_true]

/-- The fold over any list of update positions, from any starting array: an entry none of the listed updates lands
    on keeps the starting array's value (whatever the body `f`). -/
theorem foldl_of_not_hit (d : ScatterDims s si u) (f : α → α → α) (idx : IVec si w) (upd : u.Idx → α) (i : s.Idx)
    (l : List (Fin u.numel)) (r : s.Idx → α)
    (h : ∀ n ∈ l, d.resultIdx? (u.rowMajor.symm n) idx ≠ some i) :
    l.foldl (step d f idx upd) r i = r i := by
  induction l generalizing r with
  | nil => rfl
  | cons n l ih =>
    rw [List.foldl_cons, ih _ (fun n' hn' => h n' (List.mem_cons_of_mem _ hn'))]
    exact step_of_ne d f idx upd r n i (h n (List.mem_cons_self))

/-- The fold of the "set" body over any list of update positions, from any starting array: when every listed
    update that lands on entry `i` carries the value `v`, and either the starting array already holds `v` there or
    some listed update lands there, the entry holds `v` at the end. -/
theorem foldl_set_of_hit (d : ScatterDims s si u) (idx : IVec si w) (upd : u.Idx → α) (i : s.Idx) (v : α)
    (l : List (Fin u.numel)) (r : s.Idx → α)
    (hv : ∀ n ∈ l, d.resultIdx? (u.rowMajor.symm n) idx = some i → upd (u.rowMajor.symm n) = v)
    (h : r i = v ∨ ∃ n ∈ l, d.resultIdx? (u.rowMajor.symm n) idx = some i) :
    l.foldl (step d (fun _ b => b) idx upd) r i = v := by
  induction l generalizing r with
  | nil =>
    rcases h with h | ⟨n, hn, _⟩
    · exact h
    · exact absurd hn (List.not_mem_nil)
  | cons n l ih =>
    rw [List.foldl_cons]
    refine ih _ (fun n' hn' => hv n' (List.mem_cons_of_mem _ hn')) ?_
    by_cases hn : d.resultIdx? (u.rowMajor.symm n) idx = some i
    · left
      rw [step_set_of_eq d idx upd r n i hn]
      exact hv n (List.mem_cons_self) hn
    · rcases h with h | ⟨n', hn', hh⟩
      · left
        rw [step_of_ne d _ idx upd r n i hn]
        exact h
      · rcases List.mem_cons.1 hn' with e | hn''
        · exact absurd (e ▸ hh) hn
        · exact Or.inr ⟨n', hn'', hh⟩

/-- AN ENTRY NO UPDATE LANDS ON keeps the operand's value, whatever the body. -/
theorem scatter_of_not_hit (d : ScatterDims s si u) (f : α → α → α) (x : s.Idx → α) (idx : IVec si w) (upd : u.Idx → α)
    (i : s.Idx) (h : ∀ j : u.Idx, d.resultIdx? j idx ≠ some i) :
    Host.scatter d f x idx upd i = x i := by
  rw [scatter_eq_foldl]
  exact foldl_of_not_hit d f idx upd i _ x (fun n _ => h _)

/-- AN ENTRY EXACTLY ONE UPDATE INDEX LANDS ON holds, after a "set" scatter, that update: `j` lands on `i` and no other
    update index does. -/
theorem scatter_set_of_unique (d : ScatterDims s si u) (x : s.Idx → α) (idx : IVec si w) (upd : u.Idx → α)
    (i : s.Idx) (j : u.Idx) (hj : d.resultIdx? j idx = some i)
    (huniq : ∀ j' : u.Idx, d.resultIdx? j' idx = some i → j' = j) :
    Host.scatter d (fun _ b => b) x idx upd i = upd j := by
  rw [scatter_eq_foldl]
  refine foldl_set_of_hit d idx upd i (upd j) _ x (fun n _ hn => by rw [huniq _ hn]) (Or.inr ⟨u.rowMajor j, List.mem_finRange _, ?_⟩)
  rw [Equiv.symm_apply_apply]
  exact hj

end Fold

section Column
variable {α : Type} {w : Nat}

/-- The dimension numbers of the scatter that writes a vector `[R]` into ONE column of an operand `[R, C]`: the
    updates' one axis is the window axis and goes to the operand's rows, the operand's column axis is inserted,
    and the one scatter index (an index vector of length 1) names the column. Their conditions `wf` are decided
    on a program's literal extents. -/
abbrev colSet (R C : Nat) (wf : ScatterDims.WF ⟨2, ![R, C]⟩ ⟨1, ![1]⟩ ⟨1, ![R]⟩ [0] [1] [1] 0) :
    ScatterDims ⟨2, ![R, C]⟩ ⟨1, ![1]⟩ ⟨1, ![R]⟩ where
  updateWindowDims := [0]
  insertedWindowDims := [1]
  scatterDimsToOperandDims := [1]
  indexVectorDim := 0
  wf := wf

/-- The column scatter's window starts at row `0`. -/
theorem colSet_start_row {R C : Nat} (wf : ScatterDims.WF ⟨2, ![R, C]⟩ ⟨1, ![1]⟩ ⟨1, ![R]⟩ [0] [1] [1] 0)
    (idx : IVec ⟨1, ![1]⟩ w) (j : (⟨1, ![R]⟩ : Shape).Idx) :
    (colSet R C wf).start j idx (0 : Fin 2) = 0 := by
  unfold ScatterDims.start
  rw [dif_neg (fun h => absurd (List.mem_singleton.1 h) (by decide : (0 : Fin 2) ≠ 1))]

/-- The column scatter's window starts at the column the index word names, read signed. -/
theorem colSet_start_col {R C : Nat} (wf : ScatterDims.WF ⟨2, ![R, C]⟩ ⟨1, ![1]⟩ ⟨1, ![R]⟩ [0] [1] [1] 0)
    (idx : IVec ⟨1, ![1]⟩ w) (j : (⟨1, ![R]⟩ : Shape).Idx) :
    (colSet R C wf).start j idx (1 : Fin 2) = (idx (ix1 ⟨0, Nat.one_pos⟩)).toInt := by
  unfold ScatterDims.start
  rw [dif_pos (show (1 : Fin 2) ∈ (colSet R C wf).scatterDimsToOperandDims from List.mem_singleton.mpr rfl)]
  have hsi : (colSet R C wf).siIdx j ⟨List.idxOf (1 : Fin 2) (colSet R C wf).scatterDimsToOperandDims,
      List.idxOf_lt_length_iff.2 (List.mem_singleton.mpr rfl)⟩ = ix1 ⟨0, Nat.one_pos⟩ := by
    funext b; refine Fin.ext ?_
    match b with
    | ⟨0, _⟩ => rfl
  rw [hsi]

/-- The column scatter's window coordinate on the row axis is the update's row. -/
theorem colSet_window_row {R C : Nat} (wf : ScatterDims.WF ⟨2, ![R, C]⟩ ⟨1, ![1]⟩ ⟨1, ![R]⟩ [0] [1] [1] 0)
    (j : (⟨1, ![R]⟩ : Shape).Idx) :
    (colSet R C wf).window j (0 : Fin 2) = (j 0).val := by
  unfold ScatterDims.window
  rw [dif_pos (show (0 : Fin 2) ∈ (colSet R C wf).sKept from by
    simp [ScatterDims.sKept, Shape.kept, List.mem_filter, List.mem_finRange])]
  rfl

/-- The column scatter's window coordinate on the column axis is `0`: that axis is inserted. -/
theorem colSet_window_col {R C : Nat} (wf : ScatterDims.WF ⟨2, ![R, C]⟩ ⟨1, ![1]⟩ ⟨1, ![R]⟩ [0] [1] [1] 0)
    (j : (⟨1, ![R]⟩ : Shape).Idx) :
    (colSet R C wf).window j (1 : Fin 2) = 0 := by
  unfold ScatterDims.window
  rw [dif_neg (show (1 : Fin 2) ∉ (colSet R C wf).sKept from by
    simp [ScatterDims.sKept, Shape.kept, List.mem_filter, List.mem_finRange])]

/-- WHERE UPDATE `r` LANDS: when the index word reads, signed, the column `c` of the operand, the update at row `r`
    lands on entry `(r, c)`. -/
theorem colSet_resultIdx {R C : Nat} (wf : ScatterDims.WF ⟨2, ![R, C]⟩ ⟨1, ![1]⟩ ⟨1, ![R]⟩ [0] [1] [1] 0)
    (idx : IVec ⟨1, ![1]⟩ w) (c : Fin C) (hc : (idx (ix1 ⟨0, Nat.one_pos⟩)).toInt = (c.val : Int)) (r : Fin R) :
    (colSet R C wf).resultIdx? (ix1 r) idx = some (ix2 r c) := by
  unfold ScatterDims.resultIdx?
  have h : ∀ a : Fin 2, 0 ≤ (colSet R C wf).start (ix1 r) idx a + (colSet R C wf).window (ix1 r) a ∧
      (colSet R C wf).start (ix1 r) idx a + (colSet R C wf).window (ix1 r) a < (![R, C] : Fin 2 → Nat) a := by
    rw [Fin.forall_fin_two]
    refine ⟨?_, ?_⟩
    · rw [colSet_start_row, colSet_window_row]
      have := r.isLt
      show 0 ≤ (0 : Int) + (r.val : Int) ∧ (0 : Int) + (r.val : Int) < (R : Int)
      omega
    · rw [colSet_start_col, colSet_window_col, hc]
      have := c.isLt
      show 0 ≤ (c.val : Int) + ((0 : Nat) : Int) ∧ (c.val : Int) + ((0 : Nat) : Int) < (C : Int)
      omega
  rw [dif_pos h]
  congr 1
  funext a
  refine Fin.ext ?_
  match a with
  | ⟨0, _⟩ =>
    show ((colSet R C wf).start (ix1 r) idx (0 : Fin 2) + (colSet R C wf).window (ix1 r) (0 : Fin 2)).toNat = r.val
    rw [colSet_start_row, colSet_window_row]
    show ((0 : Int) + (r.val : Int)).toNat = r.val
    omega
  | ⟨1, _⟩ =>
    show ((colSet R C wf).start (ix1 r) idx (1 : Fin 2) + (colSet R C wf).window (ix1 r) (1 : Fin 2)).toNat = c.val
    rw [colSet_start_col, colSet_window_col, hc]
    show ((c.val : Int) + ((0 : Nat) : Int)).toNat = c.val
    omega

/-- THE COLUMN WRITE READ AT AN ENTRY: with the index word reading the column `c`, the scatter of the vector `upd`
    into `x` holds `upd`'s row `r` at `(r, c)` and `x`'s own value at every entry of another column. -/
theorem scatter_colSet_apply {R C : Nat} (wf : ScatterDims.WF ⟨2, ![R, C]⟩ ⟨1, ![1]⟩ ⟨1, ![R]⟩ [0] [1] [1] 0)
    (x : (⟨2, ![R, C]⟩ : Shape).Idx → α) (idx : IVec ⟨1, ![1]⟩ w) (upd : (⟨1, ![R]⟩ : Shape).Idx → α)
    (c : Fin C) (hc : (idx (ix1 ⟨0, Nat.one_pos⟩)).toInt = (c.val : Int)) (r : Fin R) (k : Fin C) :
    Host.scatter (colSet R C wf) (fun _ b => b) x idx upd (ix2 r k) = if k = c then upd (ix1 r) else x (ix2 r k) := by
  by_cases hk : k = c
  · rw [if_pos hk, hk]
    refine scatter_set_of_unique _ x idx upd (ix2 r c) (ix1 r) (colSet_resultIdx wf idx c hc r) ?_
    intro j' hj'
    obtain ⟨r', rfl⟩ : ∃ r' : Fin R, j' = ix1 r' := ⟨j' 0, eq_ix1 j'⟩
    rw [colSet_resultIdx wf idx c hc r'] at hj'
    have e : r' = r := congrFun (Option.some.inj hj') (0 : Fin 2)
    rw [e]
  · rw [if_neg hk]
    refine scatter_of_not_hit _ _ x idx upd (ix2 r k) ?_
    intro j' hj'
    obtain ⟨r', rfl⟩ : ∃ r' : Fin R, j' = ix1 r' := ⟨j' 0, eq_ix1 j'⟩
    rw [colSet_resultIdx wf idx c hc r'] at hj'
    have e : c = k := congrFun (Option.some.inj hj') (1 : Fin 2)
    exact hk e.symm

end Column

end Cert.Lib.ColumnScatter
-- ==== Proof.RegionInputs.lean ====
/-
  What the kernel's region finds in its packed weight arrays: each array the host operations before the region
  build (a transpose, five column writes into zero matrices, three reshapes; every format change the identity on
  the extended reals) read at an index, as an entry of the program's arguments.
-/
import proofs.«126602_j18769007084097_2_alg».proof.Proof.Gen.KernelIdeal.Frame
import proofs.«126602_j18769007084097_2_alg».proof.Proof.LibColumnScatter
import proofs.«126602_j18769007084097_2_alg».proof.Proof.CellSpec
import Idealize.ShloMosaic.Lib.Pipeline.Value
import Idealize.ShloMosaic.Lib.ValueLayout
import Idealize.ShloMosaic.Lib.Tactic

noncomputable section

open Idealize.ShloMosaic Idealize.ShloMosaic.TcCoe Idealize.ShloMosaic.ValueIdx Idealize.SL.Sem

namespace Cert.KernelIdeal.RegionInputs

open Cert.KernelIdeal Cert.KernelIdeal.Gen
open Cert.CellSpec (lo hi z1)
open Cert.Lib.ColumnScatter

variable (m : (ℓ : Loc nD τ sig) → Buf (Elt Ideal) ℓ) (c : Dev nD)

/-- The second weight matrix reaches the region as the argument itself (the format change is the identity). -/
theorem v2_eq : (V m c main_v2 : S1024x1024.Idx → EReal) = m ((c : Thread nD τ).loc main_arg2) := by
  show StableHlo.after hostOps0 (fun b => m (c, b)) (Proc.devRef .tc main_v2) = _
  after_results
  rfl

/-- The second weight matrix read at an entry. -/
theorem memory_at (d j : Fin 1024) :
    (V m c main_v2 : S1024x1024.Idx → EReal) (ix2 d j) = m ((c : Thread nD τ).loc main_arg2) (ix2 d j) :=
  congrFun (v2_eq m c) (ix2 d j)

/-- The first weight matrix reaches the region transposed. -/
theorem projW_at (d h : Fin 1024) :
    (V m c main_v1 : S1024x1024.Idx → EReal) (ix2 d h) = m ((c : Thread nD τ).loc main_arg1) (ix2 h d) := by
  have e : (V m c main_v1 : S1024x1024.Idx → EReal)
      = (transpose S1024x1024 [1, 0] (m ((c : Thread nD τ).loc main_arg1) : S1024x1024.Idx → EReal)
          Facts₀.transposes_S1024x1024_S1024x1024_1_0 : S1024x1024.Idx → EReal) := by
    show StableHlo.after hostOps0 (fun b => m (c, b)) (Proc.devRef .tc main_v1) = _
    after_results
    rfl
  rw [e]
  exact transpose_apply _ _ _ _ _ (fun b => by match b with | ⟨0, _⟩ => rfl | ⟨1, _⟩ => rfl)

/-- A length-1 vector reshaped to a 1×1 array holds the vector's one entry. -/
theorem cast11_apply (A : S1.Idx → EReal) :
    shapeCast S1x1 A Facts₀.shapeCasts_S1_S1x1 (ix2 z1 z1) = A (ix1 z1) := by
  refine shapeCast_apply _ _ _ _ ?_
  rw [Shape.rowMajor_val_one, Shape.rowMajor_val_two]
  rfl

/-- The first gate's bias reaches the region as a 1×1 array. -/
theorem biasForget_at :
    (V m c main_v26 : S1x1.Idx → EReal) (ix2 z1 z1) = m ((c : Thread nD τ).loc main_arg4) (ix1 z1) := by
  have e : (V m c main_v26 : S1x1.Idx → EReal)
      = shapeCast S1x1 (m ((c : Thread nD τ).loc main_arg4) : S1.Idx → EReal) Facts₀.shapeCasts_S1_S1x1 := by
    show StableHlo.after hostOps0 (fun b => m (c, b)) (Proc.devRef .tc main_v26) = _
    after_results
    rfl
  rw [e]
  exact cast11_apply _

/-! ## The pieces the packed arrays are built from -/

/-- The first 1024 entries of a 1×2048 row, as a vector. -/
def loVec (A : S1x2048.Idx → EReal) : S1024.Idx → EReal :=
  shapeCast S1024 (extractStridedSlice S1x1024 ![0, 0] A Facts₀.slices_S1x2048_S1x1024_0_0) Facts₀.shapeCasts_S1x1024_S1024
/-- The last 1024 entries of a 1×2048 row, as a vector. -/
def hiVec (A : S1x2048.Idx → EReal) : S1024.Idx → EReal :=
  shapeCast S1024 (extractStridedSlice S1x1024 ![0, 1024] A Facts₀.slices_S1x2048_S1x1024_0_1024) Facts₀.shapeCasts_S1x1024_S1024
/-- A 1×1024 row as a vector. -/
def rowVec (A : S1x1024.Idx → EReal) : S1024.Idx → EReal := shapeCast S1024 A Facts₀.shapeCasts_S1x1024_S1024
/-- The 1024×128 matrix of zeros the column writes start from. -/
def zeros : S1024x128.Idx → EReal :=
  broadcastInDim S1024x128 ![] Facts₀.bcast_S_S1024x128 (constant (F := Ideal) S_ .f32 0x00000000#32)
/-- The one-entry index vector holding the column number `k`. -/
def colWord (k : BitVec 32) : IVec S1 32 := broadcastInDim S1 ![] Facts₀.bcast_S_S1 (constantI S_ 32 k)

/-- The first-half vector read at `h` is the row's entry `h`. -/
theorem loVec_apply (A : S1x2048.Idx → EReal) (h : Fin 1024) : loVec A (ix1 h) = A (ix2 z1 (lo h)) := by
  unfold loVec
  rw [shapeCast_apply _ _ (ix1 h) (ix2 z1 h) (by
    rw [Shape.rowMajor_val_two, Shape.rowMajor_val_one]; show 0 * 1024 + h.val = h.val; omega)]
  exact extractStridedSlice_apply _ _ _ _ _ (fun a => by
    match a with
    | ⟨0, _⟩ => rfl
    | ⟨1, _⟩ => show h.val = 0 + h.val; omega)

/-- The second-half vector read at `d` is the row's entry `1024 + d`. -/
theorem hiVec_apply (A : S1x2048.Idx → EReal) (d : Fin 1024) : hiVec A (ix1 d) = A (ix2 z1 (hi d)) := by
  unfold hiVec
  rw [shapeCast_apply _ _ (ix1 d) (ix2 z1 d) (by
    rw [Shape.rowMajor_val_two, Shape.rowMajor_val_one]; show 0 * 1024 + d.val = d.val; omega)]
  exact extractStridedSlice_apply _ _ _ _ _ (fun a => by
    match a with
    | ⟨0, _⟩ => rfl
    | ⟨1, _⟩ => rfl)

/-- A 1×1024 row as a vector read at `h` is the row's entry `h`. -/
theorem rowVec_apply (A : S1x1024.Idx → EReal) (h : Fin 1024) : rowVec A (ix1 h) = A (ix2 z1 h) := by
  unfold rowVec
  exact shapeCast_apply _ _ (ix1 h) (ix2 z1 h) (by
    rw [Shape.rowMajor_val_two, Shape.rowMajor_val_one]; show 0 * 1024 + h.val = h.val; omega)

/-- ONE COLUMN WRITE of the program read at an entry: the vector's row in the named column, the operand elsewhere. -/
theorem colWrite_apply (x : S1024x128.Idx → EReal) (kw : BitVec 32) (cc : Fin 128) (hkw : kw.toInt = (cc.val : Int))
    (u : S1024.Idx → EReal) (h : Fin 1024) (k : Fin 128) :
    Host.scatter scatter_S1024x128_S1_S1024_0_1_1_0 (fun _ b => b) x (colWord kw) u (ix2 h k)
      = if k = cc then u (ix1 h) else x (ix2 h k) :=
  scatter_colSet_apply (α := EReal) Facts₀.scatter_S1024x128_S1_S1024_0_1_1_0_wf x (colWord kw) u cc hkw h k

/-! ## The packed arrays -/

set_option maxHeartbeats 4000000 in
/-- The region's first packed array: three column writes into the zero matrix. -/
theorem v17_eq : (V m c main_v17 : S1024x128.Idx → EReal)
    = Host.scatter scatter_S1024x128_S1_S1024_0_1_1_0 (fun _ b => b)
        (Host.scatter scatter_S1024x128_S1_S1024_0_1_1_0 (fun _ b => b)
          (Host.scatter scatter_S1024x128_S1_S1024_0_1_1_0 (fun _ b => b) zeros (colWord 0#32)
            (loVec (m ((c : Thread nD τ).loc main_arg3))))
          (colWord 1#32) (loVec (m ((c : Thread nD τ).loc main_arg5))))
        (colWord 2#32) (rowVec (m ((c : Thread nD τ).loc main_arg7))) := by
  show StableHlo.after hostOps0 (fun b => m (c, b)) (Proc.devRef .tc main_v17) = _
  after_results
  rfl

set_option maxHeartbeats 4000000 in
/-- The region's second packed array: two column writes into the zero matrix. -/
theorem v25_eq : (V m c main_v25 : S1024x128.Idx → EReal)
    = Host.scatter scatter_S1024x128_S1_S1024_0_1_1_0 (fun _ b => b)
        (Host.scatter scatter_S1024x128_S1_S1024_0_1_1_0 (fun _ b => b) zeros (colWord 0#32)
          (hiVec (m ((c : Thread nD τ).loc main_arg3))))
        (colWord 1#32) (hiVec (m ((c : Thread nD τ).loc main_arg5))) := by
  show StableHlo.after hostOps0 (fun b => m (c, b)) (Proc.devRef .tc main_v25) = _
  after_results_simp
  rfl

/-- Column 0 of the first packed array: the first gate's weights that meet the projection. -/
theorem gvForget_at (h : Fin 1024) :
    (V m c main_v17 : S1024x128.Idx → EReal) (ix2 h ⟨0, by norm_num⟩)
      = m ((c : Thread nD τ).loc main_arg3) (ix2 z1 (lo h)) := by
  rw [v17_eq, colWrite_apply _ 2#32 ⟨2, by norm_num⟩ (by decide), if_neg (by decide),
    colWrite_apply _ 1#32 ⟨1, by norm_num⟩ (by decide), if_neg (by decide),
    colWrite_apply _ 0#32 ⟨0, by norm_num⟩ (by decide), if_pos rfl, loVec_apply]

/-- Column 1 of the first packed array: the second gate's weights that meet the projection. -/
theorem gvUpdate_at (h : Fin 1024) :
    (V m c main_v17 : S1024x128.Idx → EReal) (ix2 h ⟨1, by norm_num⟩)
      = m ((c : Thread nD τ).loc main_arg5) (ix2 z1 (lo h)) := by
  rw [v17_eq, colWrite_apply _ 2#32 ⟨2, by norm_num⟩ (by decide), if_neg (by decide),
    colWrite_apply _ 1#32 ⟨1, by norm_num⟩ (by decide), if_pos rfl, loVec_apply]

/-- Column 2 of the first packed array: the mixing weights. -/
theorem gvMix_at (h : Fin 1024) :
    (V m c main_v17 : S1024x128.Idx → EReal) (ix2 h ⟨2, by norm_num⟩)
      = m ((c : Thread nD τ).loc main_arg7) (ix2 z1 h) := by
  rw [v17_eq, colWrite_apply _ 2#32 ⟨2, by norm_num⟩ (by decide), if_pos rfl, rowVec_apply]

/-- Column 0 of the second packed array: the first gate's weights that meet the input row. -/
theorem gxForget_at (d : Fin 1024) :
    (V m c main_v25 : S1024x128.Idx → EReal) (ix2 d ⟨0, by norm_num⟩)
      = m ((c : Thread nD τ).loc main_arg3) (ix2 z1 (hi d)) := by
  rw [v25_eq, colWrite_apply _ 1#32 ⟨1, by norm_num⟩ (by decide), if_neg (by decide),
    colWrite_apply _ 0#32 ⟨0, by norm_num⟩ (by decide), if_pos rfl, hiVec_apply]

/-- Column 1 of the second packed array: the second gate's weights that meet the input row. -/
theorem gxUpdate_at (d : Fin 1024) :
    (V m c main_v25 : S1024x128.Idx → EReal) (ix2 d ⟨1, by norm_num⟩)
      = m ((c : Thread nD τ).loc main_arg5) (ix2 z1 (hi d)) := by
  rw [v25_eq, colWrite_apply _ 1#32 ⟨1, by norm_num⟩ (by decide), if_pos rfl, hiVec_apply]

/-- The second gate's bias reaches the region as a 1×1 array. -/
theorem biasUpdate_at :
    (V m c main_v27 : S1x1.Idx → EReal) (ix2 z1 z1) = m ((c : Thread nD τ).loc main_arg6) (ix1 z1) := by
  have e : (V m c main_v27 : S1x1.Idx → EReal)
      = shapeCast S1x1 (m ((c : Thread nD τ).loc main_arg6) : S1.Idx → EReal) Facts₀.shapeCasts_S1_S1x1 := by
    show StableHlo.after hostOps0 (fun b => m (c, b)) (Proc.devRef .tc main_v27) = _
    after_results
    rfl
  rw [e]
  exact cast11_apply _

/-- The mixing bias reaches the region as a 1×1 array. -/
theorem biasMix_at :
    (V m c main_v28 : S1x1.Idx → EReal) (ix2 z1 z1) = m ((c : Thread nD τ).loc main_arg8) (ix1 z1) := by
  have e : (V m c main_v28 : S1x1.Idx → EReal)
      = shapeCast S1x1 (m ((c : Thread nD τ).loc main_arg8) : S1.Idx → EReal) Facts₀.shapeCasts_S1_S1x1 := by
    show StableHlo.after hostOps0 (fun b => m (c, b)) (Proc.devRef .tc main_v28) = _
    after_results
    rfl
  rw [e]
  exact cast11_apply _

end Cert.KernelIdeal.RegionInputs
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.TileEntries.lean ====
/-
  One tile of 1024 rows, read entry by entry on the extended reals.

  With `x` the tile's 1024 rows, `W` the transposed projection weights, `M` the memory, `Gv` and `Gx` the gate
  weights packed column-wise and `bf`, `bu`, `bm` the three biases:
    projection  (p, h) ↦ ∑ d, x (p, d) · W (d, h)        prediction  (p, j) ↦ ∑ d, x (p, d) · M (d, j)
    gate columns (p, k) ↦ ∑ h, projection (p, h) · Gv (h, k)   and   (p, k) ↦ ∑ d, x (p, d) · Gx (d, k)
    forget / update logits: column 0 / 1 of both gate products added, plus the bias; mixing logit: column 2 of the first
    blended rows (p, j) ↦ s · projection (p, j) + (1 − s) · prediction (p, j), s the logistic of the mixing logit
    Hebbian step (h, d) ↦ acc (h, d) + ∑ p, (projection − prediction) (p, h) · x (p, d)
    gate sums    acc + ∑ p, logistic (logit p)
  A change of float format is the identity here, so the bf16 casts disappear.
-/
import proofs.«126602_j18769007084097_2_alg».proof.Proof.Gen.KernelIdeal.Skeleton
import proofs.«126602_j18769007084097_2_alg».proof.Proof.LibPlainDot
import proofs.«126602_j18769007084097_2_alg».proof.Proof.LibFirstAxesDot
import proofs.«126602_j18769007084097_2_alg».proof.Proof.LibColumnSum
import proofs.«126602_j18769007084097_2_alg».proof.Proof.CellSpec
import Idealize.ShloMosaic.Lib.ValueIdx
import Idealize.ShloMosaic.Lib.ValueLayout
import Idealize.ShloMosaic.Lib.Pipeline.Value

noncomputable section

open scoped BigOperators

namespace Cert.KernelIdeal.TileEntries

open Idealize.ShloMosaic Idealize.ShloMosaic.ValueIdx Cert.KernelIdeal Cert.KernelIdeal.Gen
open Cert.CellSpec (z1 one)

/-- The three gate columns of the packed weights. -/
abbrev c0 : Fin 128 := ⟨0, by norm_num⟩
abbrev c1 : Fin 128 := ⟨1, by norm_num⟩
abbrev c2 : Fin 128 := ⟨2, by norm_num⟩

/-! ## Layout steps at coordinates -/

/-- Column `c` of a [1024, 128] matrix cut out as a [1024, 1] column. -/
theorem column_at (v : FVec Ideal S1024x128 .f32) (c : Fin 128) (h : S1024x128.Slices ![0, c.val] S1024x1) (p : Fin 1024) :
    extractStridedSlice S1024x1 ![0, c.val] v h (ix2 p z1) = v (ix2 p c) :=
  slice2_axis1_apply (n0 := 1024) (n1 := 128) (m := 1) c.val v h p z1 c rfl

/-- A [1, 1] bias spread down a [1024, 1] column. -/
theorem bias_at (v : FVec Ideal S1x1 .f32) (hc : S1x1.ShapeCasts S1x1) (hb : S1x1.Broadcasts S1024x1) (p : Fin 1024) :
    broadcastTo S1024x1 (shapeCast S1x1 v hc) hb (ix2 p z1) = v (ix2 z1 z1) := by
  refine (broadcastTo_apply _ hb (ix2 p z1) (ix2 z1 z1) fun a => ?_).trans (congrFun (shapeCast_self v hc) _)
  match a with
  | ⟨0, _⟩ => rfl
  | ⟨1, _⟩ => rfl

/-- A [1024, 1] column spread across the 1024 columns of a row. -/
theorem spread_at (v : FVec Ideal S1024x1 .f32) (hb : S1024x1.Broadcasts S1024x1024) (p j : Fin 1024) :
    broadcastTo S1024x1024 v hb (ix2 p j) = v (ix2 p z1) := by
  refine broadcastTo_apply v hb (ix2 p j) (ix2 p z1) fun a => ?_
  match a with
  | ⟨0, _⟩ => rfl
  | ⟨1, _⟩ => rfl

/-! ## The products -/

section
variable (x : FVec Ideal S1024x1024 .f32) (W M : FVec Ideal S1024x1024 .bf16) (Gv Gx : FVec Ideal S1024x128 .bf16)

/-- The projection of the tile's row `p` on weight column `h`. -/
theorem proj_at (p h : Fin 1024) :
    k0_pay8 (F := Ideal) x W (ix2 p h) = ∑ d : Fin 1024, x (ix2 p d) * W (ix2 d h) := by
  unfold k0_pay8 k0_pay7
  refine (Cert.Lib.PlainDot.matmul_zero_apply (M := 1024) (K := 1024) (N := 1024) none _ _ p h).trans ?_
  exact Finset.sum_congr rfl fun d _ => congrArg (x (ix2 p d) * ·) (congrFun (shapeCast_self W _) _)

/-- The memory's prediction for row `p`, column `j`. -/
theorem pred_at (p j : Fin 1024) :
    k0_pay9 (F := Ideal) x M (ix2 p j) = ∑ d : Fin 1024, x (ix2 p d) * M (ix2 d j) := by
  unfold k0_pay9 k0_pay7
  refine (Cert.Lib.PlainDot.matmul_zero_apply (M := 1024) (K := 1024) (N := 1024) none _ _ p j).trans ?_
  exact Finset.sum_congr rfl fun d _ => congrArg (x (ix2 p d) * ·) (congrFun (shapeCast_self M _) _)

/-- The error: projection minus prediction. -/
theorem err_at (p h : Fin 1024) :
    k0_pay10 (F := Ideal) x W M (ix2 p h) = k0_pay8 (F := Ideal) x W (ix2 p h) - k0_pay9 (F := Ideal) x M (ix2 p h) := rfl

/-- The projection against the packed gate weights, column `k`. -/
theorem gateV_at (p : Fin 1024) (k : Fin 128) :
    k0_pay11 (F := Ideal) x W Gv (ix2 p k) = ∑ h : Fin 1024, k0_pay8 (F := Ideal) x W (ix2 p h) * Gv (ix2 h k) := by
  unfold k0_pay11
  refine (Cert.Lib.PlainDot.matmul_zero_apply (M := 1024) (K := 1024) (N := 128) none _ _ p k).trans ?_
  exact Finset.sum_congr rfl fun h _ => congrArg (k0_pay8 (F := Ideal) x W (ix2 p h) * ·) (congrFun (shapeCast_self Gv _) _)

/-- The input row against the packed gate weights, column `k`. -/
theorem gateX_at (p : Fin 1024) (k : Fin 128) :
    k0_pay12 (F := Ideal) x Gx (ix2 p k) = ∑ d : Fin 1024, x (ix2 p d) * Gx (ix2 d k) := by
  unfold k0_pay12 k0_pay7
  refine (Cert.Lib.PlainDot.matmul_zero_apply (M := 1024) (K := 1024) (N := 128) none _ _ p k).trans ?_
  exact Finset.sum_congr rfl fun d _ => congrArg (x (ix2 p d) * ·) (congrFun (shapeCast_self Gx _) _)

/-! ## The three logits -/

/-- The forget logit of row `p`: column 0 of both gate products, plus the bias. -/
theorem forgetLogit_at (bf : FVec Ideal S1x1 .f32) (p : Fin 1024) :
    k0_pay13 (F := Ideal) x W Gv Gx bf (ix2 p z1)
      = (k0_pay11 (F := Ideal) x W Gv (ix2 p c0) + k0_pay12 (F := Ideal) x Gx (ix2 p c0)) + bf (ix2 z1 z1) := by
  unfold k0_pay13
  simp only [addf_apply]
  exact congrArg₂ (· + ·) (congrArg₂ (· + ·) (column_at _ c0 _ p) (column_at _ c0 _ p)) (bias_at bf _ _ p)

/-- The update logit of row `p`: column 1 of both gate products, plus the bias. -/
theorem updateLogit_at (bu : FVec Ideal S1x1 .f32) (p : Fin 1024) :
    k0_pay14 (F := Ideal) x W Gv Gx bu (ix2 p z1)
      = (k0_pay11 (F := Ideal) x W Gv (ix2 p c1) + k0_pay12 (F := Ideal) x Gx (ix2 p c1)) + bu (ix2 z1 z1) := by
  unfold k0_pay14
  simp only [addf_apply]
  exact congrArg₂ (· + ·) (congrArg₂ (· + ·) (column_at _ c1 _ p) (column_at _ c1 _ p)) (bias_at bu _ _ p)

/-- The mixing gate's product of row `p`: column 2 of the first gate product. -/
theorem mixProduct_at (p : Fin 1024) :
    k0_pay15 (F := Ideal) x W Gv (ix2 p z1) = k0_pay11 (F := Ideal) x W Gv (ix2 p c2) := by
  unfold k0_pay15
  exact column_at _ c2 _ p

end

/-! ## The stores' payloads -/

/-- The blended rows: with `s` the logistic of the mixing logit, `s · v + (1 − s) · y`. -/
theorem blend_at (v y : FVec Ideal S1024x1024 .f32) (g : FVec Ideal S1024x1 .f32) (bm : FVec Ideal S1x1 .f32) (p j : Fin 1024) :
    k0_pay16 (F := Ideal) v y g bm (ix2 p j)
      = Ideal.logistic (g (ix2 p z1) + bm (ix2 z1 z1)) * v (ix2 p j)
        + (one - Ideal.logistic (g (ix2 p z1) + bm (ix2 z1 z1))) * y (ix2 p j) := by
  unfold k0_pay16
  simp only [addf_apply, mulf_apply]
  rw [spread_at, spread_at]
  show Ideal.logistic (g (ix2 p z1) + broadcastTo S1024x1 (shapeCast S1x1 bm _) _ (ix2 p z1)) * v (ix2 p j)
      + (one - Ideal.logistic (g (ix2 p z1) + broadcastTo S1024x1 (shapeCast S1x1 bm _) _ (ix2 p z1))) * y (ix2 p j) = _
  rw [bias_at]

/-- The Hebbian step: the accumulator plus (error)ᵀ · x at `(h, d)`. -/
theorem hebbStep_at (x : FVec Ideal S1024x1024 .f32) (e acc : FVec Ideal S1024x1024 .f32) (h d : Fin 1024) :
    k0_pay17 (F := Ideal) x e acc (ix2 h d) = acc (ix2 h d) + ∑ p : Fin 1024, e (ix2 p h) * x (ix2 p d) := by
  unfold k0_pay17
  refine (congrFun (shapeCast_self _ _) _).trans ?_
  simp only [addf_apply]
  exact congrArg (acc (ix2 h d) + ·) (Cert.Lib.FirstAxesDot.matmul_zero_apply (K := 1024) (M := 1024) (N := 1024) _ (some .fp32) e x h d)

/-- The forget sum's step: the accumulator plus the tile's sum of the gate. -/
theorem forgetStep_at (l : FVec Ideal S1024x1 .f32) (acc : FVec Ideal S1x1 .f32) :
    k0_pay18 (F := Ideal) l acc (ix2 z1 z1) = acc (ix2 z1 z1) + ∑ p : Fin 1024, Ideal.logistic (l (ix2 p z1)) := by
  unfold k0_pay18
  refine (congrFun (shapeCast_self _ _) _).trans ?_
  simp only [addf_apply]
  refine congrArg (acc (ix2 z1 z1) + ·) ?_
  refine (shapeCast_a_1a_apply _ _ z1 z1).trans ?_
  exact Idealize.ShloMosaic.ValueKeepdims.colSum_at (a := 1024) (b := 1) (logistic l) _ _ _ z1

/-- The update sum's step: the same with the update gate. -/
theorem updateStep_at (l : FVec Ideal S1024x1 .f32) (acc : FVec Ideal S1x1 .f32) :
    k0_pay19 (F := Ideal) l acc (ix2 z1 z1) = acc (ix2 z1 z1) + ∑ p : Fin 1024, Ideal.logistic (l (ix2 p z1)) := by
  unfold k0_pay19
  refine (congrFun (shapeCast_self _ _) _).trans ?_
  simp only [addf_apply]
  refine congrArg (acc (ix2 z1 z1) + ·) ?_
  refine (shapeCast_a_1a_apply _ _ z1 z1).trans ?_
  exact Idealize.ShloMosaic.ValueKeepdims.colSum_at (a := 1024) (b := 1) (logistic l) _ _ _ z1

end Cert.KernelIdeal.TileEntries

end
-- ==== Proof.TileInputs.lean ====
/-
  The blocks the body finds in its staging buffers, read at coordinates.

  At grid point `t` (of 16, in launch order) the row window holds rows `1024 t + p` of the batch; every other input
  window holds its whole array at every point: the transposed projection weights, the memory, the two packed gate
  matrices and the three biases, as the host operations before the launch left them.
-/
import proofs.«126602_j18769007084097_2_alg».proof.Proof.Gen.KernelIdeal.Frame
import proofs.«126602_j18769007084097_2_alg».proof.Proof.CellSpec
import Idealize.ShloMosaic.Lib.Pipeline.Value
import Idealize.ShloMosaic.Lib.ValueIdx

noncomputable section

namespace Cert.KernelIdeal.TileInputs

open Idealize.ShloMosaic Idealize.ShloMosaic.TcCoe Idealize.ShloMosaic.ValueIdx Idealize.SL.Sem Cert.KernelIdeal Cert.KernelIdeal.Gen
open Cert.CellSpec (rowOf rowOf_val)

variable {F : FTy → Type} [FloatOps F]
variable (m : (ℓ : Loc nD τ sig) → Buf (Elt F) ℓ) (c : Dev nD)

/-- The row window's block index at point `t` is `(t, 0)`. -/
theorem rows_index : ∀ t : Fin cfg0.N, win0_0.index t 0 = t.val ∧ win0_0.index t 1 = 0 :=
  (by decide +kernel : ∀ t : Fin grid0.N, win0_0.index t 0 = t.val ∧ win0_0.index t 1 = 0)

/-- Row `p` of the block staged at point `t` is row `1024 t + p` of the batch. -/
theorem rows_block (t : Fin cfg0.N) (p d : Fin 1024) :
    (iblk m c 0 t : Vec F S1024x1024 _) (ix2 p d) = m ((c : Thread nD τ).loc main_arg0) (ix2 (rowOf t.val p) d) := by
  have hi := rows_index t
  have hN : t.val < 16 := lt_of_lt_of_eq t.isLt N_0
  unfold iblk
  rw [View.read_apply]
  show V m c main_arg0 _ = _
  rw [V_main_arg0 m c]
  refine congrArg (m ((c : Thread nD τ).loc main_arg0)) (funext fun ax => Fin.ext ?_)
  match ax with
  | ⟨0, _⟩ => show win0_0.index t 0 * 1024 + 1 * p.val = (rowOf t.val p).val; rw [hi.1, rowOf_val hN]; omega
  | ⟨1, _⟩ => show win0_0.index t 1 * 1024 + 1 * d.val = d.val; rw [hi.2]; omega

/-- Window 1 stages its whole array at every grid point. -/
theorem projW_index : ∀ t : Fin cfg0.N, win0_1.index t 0 = 0 ∧ win0_1.index t 1 = 0 :=
  (by decide +kernel : ∀ t : Fin grid0.N, win0_1.index t 0 = 0 ∧ win0_1.index t 1 = 0)

theorem projW_block (t : Fin cfg0.N) (q : Fin 1024) (r : Fin 1024) :
    (iblk m c 1 t : Vec F S1024x1024 _) (ix2 q r) = V m c main_v1 (ix2 q r) := by
  have hi := projW_index t
  unfold iblk
  rw [View.read_apply]
  show V m c main_v1 _ = V m c main_v1 _
  refine congrArg (V m c main_v1) (funext fun ax => Fin.ext ?_)
  match ax with
  | ⟨0, _⟩ => show win0_1.index t 0 * 1024 + 1 * q.val = q.val; rw [hi.1]; omega
  | ⟨1, _⟩ => show win0_1.index t 1 * 1024 + 1 * r.val = r.val; rw [hi.2]; omega

/-- Window 2 stages its whole array at every grid point. -/
theorem memory_index : ∀ t : Fin cfg0.N, win0_2.index t 0 = 0 ∧ win0_2.index t 1 = 0 :=
  (by decide +kernel : ∀ t : Fin grid0.N, win0_2.index t 0 = 0 ∧ win0_2.index t 1 = 0)

theorem memory_block (t : Fin cfg0.N) (q : Fin 1024) (r : Fin 1024) :
    (iblk m c 2 t : Vec F S1024x1024 _) (ix2 q r) = V m c main_v2 (ix2 q r) := by
  have hi := memory_index t
  unfold iblk
  rw [View.read_apply]
  show V m c main_v2 _ = V m c main_v2 _
  refine congrArg (V m c main_v2) (funext fun ax => Fin.ext ?_)
  match ax with
  | ⟨0, _⟩ => show win0_2.index t 0 * 1024 + 1 * q.val = q.val; rw [hi.1]; omega
  | ⟨1, _⟩ => show win0_2.index t 1 * 1024 + 1 * r.val = r.val; rw [hi.2]; omega

/-- Window 3 stages its whole array at every grid point. -/
theorem gateV_index : ∀ t : Fin cfg0.N, win0_3.index t 0 = 0 ∧ win0_3.index t 1 = 0 :=
  (by decide +kernel : ∀ t : Fin grid0.N, win0_3.index t 0 = 0 ∧ win0_3.index t 1 = 0)

theorem gateV_block (t : Fin cfg0.N) (q : Fin 1024) (r : Fin 128) :
    (iblk m c 3 t : Vec F S1024x128 _) (ix2 q r) = V m c main_v17 (ix2 q r) := by
  have hi := gateV_index t
  unfold iblk
  rw [View.read_apply]
  show V m c main_v17 _ = V m c main_v17 _
  refine congrArg (V m c main_v17) (funext fun ax => Fin.ext ?_)
  match ax with
  | ⟨0, _⟩ => show win0_3.index t 0 * 1024 + 1 * q.val = q.val; rw [hi.1]; omega
  | ⟨1, _⟩ => show win0_3.index t 1 * 128 + 1 * r.val = r.val; rw [hi.2]; omega

/-- Window 4 stages its whole array at every grid point. -/
theorem gateX_index : ∀ t : Fin cfg0.N, win0_4.index t 0 = 0 ∧ win0_4.index t 1 = 0 :=
  (by decide +kernel : ∀ t : Fin grid0.N, win0_4.index t 0 = 0 ∧ win0_4.index t 1 = 0)

theorem gateX_block (t : Fin cfg0.N) (q : Fin 1024) (r : Fin 128) :
    (iblk m c 4 t : Vec F S1024x128 _) (ix2 q r) = V m c main_v25 (ix2 q r) := by
  have hi := gateX_index t
  unfold iblk
  rw [View.read_apply]
  show V m c main_v25 _ = V m c main_v25 _
  refine congrArg (V m c main_v25) (funext fun ax => Fin.ext ?_)
  match ax with
  | ⟨0, _⟩ => show win0_4.index t 0 * 1024 + 1 * q.val = q.val; rw [hi.1]; omega
  | ⟨1, _⟩ => show win0_4.index t 1 * 128 + 1 * r.val = r.val; rw [hi.2]; omega

/-- Window 5 stages its whole array at every grid point. -/
theorem biasForget_index : ∀ t : Fin cfg0.N, win0_5.index t 0 = 0 ∧ win0_5.index t 1 = 0 :=
  (by decide +kernel : ∀ t : Fin grid0.N, win0_5.index t 0 = 0 ∧ win0_5.index t 1 = 0)

theorem biasForget_block (t : Fin cfg0.N) (q : Fin 1) (r : Fin 1) :
    (iblk m c 5 t : Vec F S1x1 _) (ix2 q r) = V m c main_v26 (ix2 q r) := by
  have hi := biasForget_index t
  unfold iblk
  rw [View.read_apply]
  show V m c main_v26 _ = V m c main_v26 _
  refine congrArg (V m c main_v26) (funext fun ax => Fin.ext ?_)
  match ax with
  | ⟨0, _⟩ => show win0_5.index t 0 * 1 + 1 * q.val = q.val; rw [hi.1]; omega
  | ⟨1, _⟩ => show win0_5.index t 1 * 1 + 1 * r.val = r.val; rw [hi.2]; omega

/-- Window 6 stages its whole array at every grid point. -/
theorem biasUpdate_index : ∀ t : Fin cfg0.N, win0_6.index t 0 = 0 ∧ win0_6.index t 1 = 0 :=
  (by decide +kernel : ∀ t : Fin grid0.N, win0_6.index t 0 = 0 ∧ win0_6.index t 1 = 0)

theorem biasUpdate_block (t : Fin cfg0.N) (q : Fin 1) (r : Fin 1) :
    (iblk m c 6 t : Vec F S1x1 _) (ix2 q r) = V m c main_v27 (ix2 q r) := by
  have hi := biasUpdate_index t
  unfold iblk
  rw [View.read_apply]
  show V m c main_v27 _ = V m c main_v27 _
  refine congrArg (V m c main_v27) (funext fun ax => Fin.ext ?_)
  match ax with
  | ⟨0, _⟩ => show win0_6.index t 0 * 1 + 1 * q.val = q.val; rw [hi.1]; omega
  | ⟨1, _⟩ => show win0_6.index t 1 * 1 + 1 * r.val = r.val; rw [hi.2]; omega

/-- Window 7 stages its whole array at every grid point. -/
theorem biasMix_index : ∀ t : Fin cfg0.N, win0_7.index t 0 = 0 ∧ win0_7.index t 1 = 0 :=
  (by decide +kernel : ∀ t : Fin grid0.N, win0_7.index t 0 = 0 ∧ win0_7.index t 1 = 0)

theorem biasMix_block (t : Fin cfg0.N) (q : Fin 1) (r : Fin 1) :
    (iblk m c 7 t : Vec F S1x1 _) (ix2 q r) = V m c main_v28 (ix2 q r) := by
  have hi := biasMix_index t
  unfold iblk
  rw [View.read_apply]
  show V m c main_v28 _ = V m c main_v28 _
  refine congrArg (V m c main_v28) (funext fun ax => Fin.ext ?_)
  match ax with
  | ⟨0, _⟩ => show win0_7.index t 0 * 1 + 1 * q.val = q.val; rw [hi.1]; omega
  | ⟨1, _⟩ => show win0_7.index t 1 * 1 + 1 * r.val = r.val; rw [hi.2]; omega

end Cert.KernelIdeal.TileInputs

end
-- ==== Proof.TileSpec.lean ====
/-
  One tile in the specification's terms.

  Hypothesis `Packed`: what the host operations before the launch leave in the arrays the body reads whole — the
  projection weights transposed, the memory as it is, the forget / update / mixing gate weights that meet the
  projection in columns 0 / 1 / 2 of one packed matrix, those that meet the input row in columns 0 / 1 of the other,
  and the three biases.  Under it, at grid point `t` and for the tile's row `p` (row `1024 t + p` of the batch), the
  body's products are the specification's projection and prediction of that row, its three logits the specification's
  gate and mixing logits, its row output the specification's blended row, and its three accumulator steps add the
  tile's share of the three batch sums.
-/
import proofs.«126602_j18769007084097_2_alg».proof.Proof.TileEntries
import proofs.«126602_j18769007084097_2_alg».proof.Proof.TileInputs

noncomputable section

open scoped BigOperators

namespace Cert.KernelIdeal.TileSpec

open Idealize.ShloMosaic Idealize.ShloMosaic.TcCoe Idealize.ShloMosaic.ValueIdx Idealize.SL.Sem Cert.KernelIdeal Cert.KernelIdeal.Gen
open Cert.CellSpec (rowOf z1 lo hi one)
open Cert.KernelIdeal.TileEntries (c0 c1 c2)

variable (m : (ℓ : Loc nD τ sig) → Buf (Elt Ideal) ℓ) (c : Dev nD)

/-- The argument arrays on core `c`. -/
abbrev A0 : FVec Ideal S16384x1024 .f32 := m ((c : Thread nD τ).loc main_arg0)
abbrev A1 : FVec Ideal S1024x1024 .f32 := m ((c : Thread nD τ).loc main_arg1)
abbrev A2 : FVec Ideal S1024x1024 .f32 := m ((c : Thread nD τ).loc main_arg2)
abbrev A3 : FVec Ideal S1x2048 .f32 := m ((c : Thread nD τ).loc main_arg3)
abbrev A4 : FVec Ideal S1 .f32 := m ((c : Thread nD τ).loc main_arg4)
abbrev A5 : FVec Ideal S1x2048 .f32 := m ((c : Thread nD τ).loc main_arg5)
abbrev A6 : FVec Ideal S1 .f32 := m ((c : Thread nD τ).loc main_arg6)
abbrev A7 : FVec Ideal S1x1024 .f32 := m ((c : Thread nD τ).loc main_arg7)
abbrev A8 : FVec Ideal S1 .f32 := m ((c : Thread nD τ).loc main_arg8)

/-- What the host operations before the launch packed into the arrays the body reads whole. -/
structure Packed : Prop where
  projW : ∀ d h : Fin 1024, (V m c main_v1 : FVec Ideal S1024x1024 .bf16) (ix2 d h) = A1 m c (ix2 h d)
  memory : ∀ d j : Fin 1024, (V m c main_v2 : FVec Ideal S1024x1024 .bf16) (ix2 d j) = A2 m c (ix2 d j)
  gvForget : ∀ h : Fin 1024, (V m c main_v17 : FVec Ideal S1024x128 .bf16) (ix2 h c0) = A3 m c (ix2 z1 (lo h))
  gvUpdate : ∀ h : Fin 1024, (V m c main_v17 : FVec Ideal S1024x128 .bf16) (ix2 h c1) = A5 m c (ix2 z1 (lo h))
  gvMix : ∀ h : Fin 1024, (V m c main_v17 : FVec Ideal S1024x128 .bf16) (ix2 h c2) = A7 m c (ix2 z1 h)
  gxForget : ∀ d : Fin 1024, (V m c main_v25 : FVec Ideal S1024x128 .bf16) (ix2 d c0) = A3 m c (ix2 z1 (hi d))
  gxUpdate : ∀ d : Fin 1024, (V m c main_v25 : FVec Ideal S1024x128 .bf16) (ix2 d c1) = A5 m c (ix2 z1 (hi d))
  biasForget : (V m c main_v26 : FVec Ideal S1x1 .f32) (ix2 z1 z1) = A4 m c (ix1 z1)
  biasUpdate : (V m c main_v27 : FVec Ideal S1x1 .f32) (ix2 z1 z1) = A6 m c (ix1 z1)
  biasMix : (V m c main_v28 : FVec Ideal S1x1 .f32) (ix2 z1 z1) = A8 m c (ix1 z1)

/-- The blocks the body finds at point `t`, at their literal types. -/
abbrev X (t : Fin cfg0.N) : FVec Ideal S1024x1024 .f32 := iblk m c 0 t
abbrev W (t : Fin cfg0.N) : FVec Ideal S1024x1024 .bf16 := iblk m c 1 t
abbrev Mb (t : Fin cfg0.N) : FVec Ideal S1024x1024 .bf16 := iblk m c 2 t
abbrev Gv (t : Fin cfg0.N) : FVec Ideal S1024x128 .bf16 := iblk m c 3 t
abbrev Gx (t : Fin cfg0.N) : FVec Ideal S1024x128 .bf16 := iblk m c 4 t
abbrev Bf (t : Fin cfg0.N) : FVec Ideal S1x1 .f32 := iblk m c 5 t
abbrev Bu (t : Fin cfg0.N) : FVec Ideal S1x1 .f32 := iblk m c 6 t
abbrev Bm (t : Fin cfg0.N) : FVec Ideal S1x1 .f32 := iblk m c 7 t

/-- The tile's share of the Hebbian sum at `(h, d)`. -/
def hebbShare (k : ℕ) (h d : Fin 1024) : EReal :=
  ∑ p : Fin 1024, (Cert.CellSpec.proj (A0 m c) (A1 m c) (rowOf k p) h - Cert.CellSpec.pred (A0 m c) (A2 m c) (rowOf k p) h)
    * A0 m c (ix2 (rowOf k p) d)

/-- The tile's share of a gate's batch sum. -/
def gateShare (gw : FVec Ideal S1x2048 .f32) (gb : FVec Ideal S1 .f32) (k : ℕ) : EReal :=
  ∑ p : Fin 1024, Cert.CellSpec.gate (A0 m c) (A1 m c) gw gb (rowOf k p)

variable {m c} (hP : Packed m c)
include hP

/-- The tile's projection is the specification's, at row `1024 t + p`. -/
theorem proj_tile (t : Fin cfg0.N) (p h : Fin 1024) :
    k0_pay8 (F := Ideal) (X m c t) (W m c t) (ix2 p h) = Cert.CellSpec.proj (A0 m c) (A1 m c) (rowOf t.val p) h := by
  refine (TileEntries.proj_at (X m c t) (W m c t) p h).trans ?_
  unfold Cert.CellSpec.proj
  refine Finset.sum_congr rfl fun d _ => ?_
  exact congrArg₂ (· * ·) (TileInputs.rows_block m c t p d) ((TileInputs.projW_block m c t d h).trans (hP.projW d h))

/-- The tile's prediction is the specification's. -/
theorem pred_tile (t : Fin cfg0.N) (p j : Fin 1024) :
    k0_pay9 (F := Ideal) (X m c t) (Mb m c t) (ix2 p j) = Cert.CellSpec.pred (A0 m c) (A2 m c) (rowOf t.val p) j := by
  refine (TileEntries.pred_at (X m c t) (Mb m c t) p j).trans ?_
  unfold Cert.CellSpec.pred
  refine Finset.sum_congr rfl fun d _ => ?_
  exact congrArg₂ (· * ·) (TileInputs.rows_block m c t p d) ((TileInputs.memory_block m c t d j).trans (hP.memory d j))

/-- The forget logit of the tile's row is the specification's gate logit with the forget weights. -/
theorem forgetLogit_tile (t : Fin cfg0.N) (p : Fin 1024) :
    k0_pay13 (F := Ideal) (X m c t) (W m c t) (Gv m c t) (Gx m c t) (Bf m c t) (ix2 p z1)
      = Cert.CellSpec.gateLogit (A0 m c) (A1 m c) (A3 m c) (A4 m c) (rowOf t.val p) := by
  refine (TileEntries.forgetLogit_at (X m c t) (W m c t) (Gv m c t) (Gx m c t) (Bf m c t) p).trans ?_
  rw [TileEntries.gateV_at (X m c t) (W m c t) (Gv m c t) p c0, TileEntries.gateX_at (X m c t) (Gx m c t) p c0]
  unfold Cert.CellSpec.gateLogit
  refine congrArg₂ (· + ·) (congrArg₂ (· + ·) (Finset.sum_congr rfl fun h _ => ?_) (Finset.sum_congr rfl fun d _ => ?_)) ?_
  · exact congrArg₂ (· * ·) (proj_tile hP t p h) ((TileInputs.gateV_block m c t h c0).trans (hP.gvForget h))
  · exact congrArg₂ (· * ·) (TileInputs.rows_block m c t p d) ((TileInputs.gateX_block m c t d c0).trans (hP.gxForget d))
  · exact (TileInputs.biasForget_block m c t z1 z1).trans hP.biasForget

/-- The update logit of the tile's row is the specification's gate logit with the update weights. -/
theorem updateLogit_tile (t : Fin cfg0.N) (p : Fin 1024) :
    k0_pay14 (F := Ideal) (X m c t) (W m c t) (Gv m c t) (Gx m c t) (Bu m c t) (ix2 p z1)
      = Cert.CellSpec.gateLogit (A0 m c) (A1 m c) (A5 m c) (A6 m c) (rowOf t.val p) := by
  refine (TileEntries.updateLogit_at (X m c t) (W m c t) (Gv m c t) (Gx m c t) (Bu m c t) p).trans ?_
  rw [TileEntries.gateV_at (X m c t) (W m c t) (Gv m c t) p c1, TileEntries.gateX_at (X m c t) (Gx m c t) p c1]
  unfold Cert.CellSpec.gateLogit
  refine congrArg₂ (· + ·) (congrArg₂ (· + ·) (Finset.sum_congr rfl fun h _ => ?_) (Finset.sum_congr rfl fun d _ => ?_)) ?_
  · exact congrArg₂ (· * ·) (proj_tile hP t p h) ((TileInputs.gateV_block m c t h c1).trans (hP.gvUpdate h))
  · exact congrArg₂ (· * ·) (TileInputs.rows_block m c t p d) ((TileInputs.gateX_block m c t d c1).trans (hP.gxUpdate d))
  · exact (TileInputs.biasUpdate_block m c t z1 z1).trans hP.biasUpdate

/-- The mixing logit of the tile's row is the specification's. -/
theorem mixLogit_tile (t : Fin cfg0.N) (p : Fin 1024) :
    k0_pay15 (F := Ideal) (X m c t) (W m c t) (Gv m c t) (ix2 p z1) + Bm m c t (ix2 z1 z1)
      = Cert.CellSpec.mixLogit (A0 m c) (A1 m c) (A7 m c) (A8 m c) (rowOf t.val p) := by
  rw [TileEntries.mixProduct_at (X m c t) (W m c t) (Gv m c t) p, TileEntries.gateV_at (X m c t) (W m c t) (Gv m c t) p c2]
  unfold Cert.CellSpec.mixLogit
  refine congrArg₂ (· + ·) (Finset.sum_congr rfl fun h _ => ?_) ?_
  · exact congrArg₂ (· * ·) (proj_tile hP t p h) ((TileInputs.gateV_block m c t h c2).trans (hP.gvMix h))
  · exact (TileInputs.biasMix_block m c t z1 z1).trans hP.biasMix

/-- The tile's row output is the specification's blended row. -/
theorem rows_tile (t : Fin cfg0.N) (p j : Fin 1024) :
    k0_pay16 (F := Ideal) (k0_pay8 (X m c t) (W m c t)) (k0_pay9 (X m c t) (Mb m c t)) (k0_pay15 (X m c t) (W m c t) (Gv m c t))
        (Bm m c t) (ix2 p j)
      = Cert.CellSpec.outAt (A0 m c) (A1 m c) (A2 m c) (A7 m c) (A8 m c) (rowOf t.val p) j := by
  refine (TileEntries.blend_at _ _ _ (Bm m c t) p j).trans ?_
  rw [mixLogit_tile hP t p, proj_tile hP t p j, pred_tile hP t p j]
  rfl

/-- One Hebbian step adds the tile's share. -/
theorem hebb_tile (t : Fin cfg0.N) (acc : FVec Ideal S1024x1024 .f32) (h d : Fin 1024) :
    k0_pay17 (F := Ideal) (X m c t) (k0_pay10 (X m c t) (W m c t) (Mb m c t)) acc (ix2 h d)
      = acc (ix2 h d) + hebbShare m c t.val h d := by
  refine (TileEntries.hebbStep_at (X m c t) _ acc h d).trans ?_
  refine congrArg (acc (ix2 h d) + ·) (Finset.sum_congr rfl fun p _ => ?_)
  exact congrArg₂ (· * ·) ((TileEntries.err_at (X m c t) (W m c t) (Mb m c t) p h).trans
    (congrArg₂ (· - ·) (proj_tile hP t p h) (pred_tile hP t p h))) (TileInputs.rows_block m c t p d)

/-- One step of the forget sum adds the tile's share. -/
theorem forget_tile (t : Fin cfg0.N) (acc : FVec Ideal S1x1 .f32) :
    k0_pay18 (F := Ideal) (k0_pay13 (X m c t) (W m c t) (Gv m c t) (Gx m c t) (Bf m c t)) acc (ix2 z1 z1)
      = acc (ix2 z1 z1) + gateShare m c (A3 m c) (A4 m c) t.val := by
  refine (TileEntries.forgetStep_at _ acc).trans ?_
  refine congrArg (acc (ix2 z1 z1) + ·) (Finset.sum_congr rfl fun p _ => ?_)
  rw [forgetLogit_tile hP t p]
  rfl

/-- One step of the update sum adds the tile's share. -/
theorem update_tile (t : Fin cfg0.N) (acc : FVec Ideal S1x1 .f32) :
    k0_pay19 (F := Ideal) (k0_pay14 (X m c t) (W m c t) (Gv m c t) (Gx m c t) (Bu m c t)) acc (ix2 z1 z1)
      = acc (ix2 z1 z1) + gateShare m c (A5 m c) (A6 m c) t.val := by
  refine (TileEntries.updateStep_at _ acc).trans ?_
  refine congrArg (acc (ix2 z1 z1) + ·) (Finset.sum_congr rfl fun p _ => ?_)
  rw [updateLogit_tile hP t p]
  rfl

end Cert.KernelIdeal.TileSpec

end
-- ==== Proof.TileValues.lean ====
/-
  What one grid step leaves behind, in each of the body's three control cases.

  The body runs at 2 × 8 grid points; within a half (8 consecutive points) it clears its three accumulators at the
  first point, adds the tile's contribution at every point, and copies the accumulators to the half's output blocks at
  the last point.  In every case the row-output buffer ends at the tile's blended rows.  Each statement reads the
  buffers' final contents off the stores the body made: one whole-buffer store decides a buffer's contents, and a load
  of a buffer just stored whole reads the stored value.  Valid at any float instance.
-/
import proofs.«126602_j18769007084097_2_alg».proof.Proof.Gen.KernelIdeal.Frame
import Idealize.ShloMosaic.Lib.Pipeline.Value
import Idealize.ShloMosaic.Lib.Tactic

set_option maxRecDepth 16384

noncomputable section

namespace Cert.KernelIdeal.TileValues

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first tile of a half the output buffer ends at the blended rows of the tile. -/
theorem rows_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay16 (k0_pay8 x0 x1) (k0_pay9 x0 x2) (k0_pay15 x0 x1 x3) x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_cons_unit_zero (S := S1024x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the first tile of a half the Hebbian accumulator ends at one step from the zero matrix. -/
theorem hebb_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay17 x0 (k0_pay10 x0 x1 x2) k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_cons_unit_zero (S := S1024x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the first tile of a half the forget sum ends at one step from zero. -/
theorem forget_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay18 (k0_pay13 x0 x1 x3 x4 x5) k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the first tile of a half the update sum ends at one step from zero. -/
theorem update_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = k0_pay19 (k0_pay14 x0 x1 x3 x4 x6) k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At a middle tile of a half the output buffer ends at the blended rows of the tile. -/
theorem rows_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay16 (k0_pay8 x0 x1) (k0_pay9 x0 x2) (k0_pay15 x0 x1 x3) x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_B
  dsimp only
  sl_unfold_words
  rw [View.canon_cons_unit_zero (S := S1024x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At a middle tile of a half the Hebbian accumulator ends at one step from what the tile before left. -/
theorem hebb_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay17 x0 (k0_pay10 x0 x1 x2) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_B
  dsimp only
  sl_unfold_words
  rw [View.canon_cons_unit_zero (S := S1024x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At a middle tile of a half the forget sum ends at one step from what the tile before left. -/
theorem forget_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay18 (k0_pay13 x0 x1 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_B
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At a middle tile of a half the update sum ends at one step from what the tile before left. -/
theorem update_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay19 (k0_pay14 x0 x1 x3 x4 x6) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_B
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the last tile of a half the output buffer ends at the blended rows of the tile. -/
theorem rows_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay16 (k0_pay8 x0 x1) (k0_pay9 x0 x2) (k0_pay15 x0 x1 x3) x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_cons_unit_zero (S := S1024x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the last tile of a half the Hebbian accumulator ends at one step from what the tile before left. -/
theorem hebb_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay17 x0 (k0_pay10 x0 x1 x2) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_cons_unit_zero (S := S1024x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the last tile of a half the forget sum ends at one step from what the tile before left. -/
theorem forget_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay18 (k0_pay13 x0 x1 x3 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the last tile of a half the update sum ends at one step from what the tile before left. -/
theorem update_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay19 (k0_pay14 x0 x1 x3 x4 x6) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the last tile of a half the Hebbian accumulator, after its step, is copied to the half's [1, 1024, 1024] output block. -/
theorem hebbOut_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay1 (k0_pay17 x0 (k0_pay10 x0 x1 x2) xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_cons_unit_zero (S := S1x1024x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the last tile of a half the forget sum, after its step, is copied to the half's [1, 1, 1] output block. -/
theorem forgetOut_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay2 (k0_pay18 (k0_pay13 x0 x1 x3 x4 x5) xs1) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_cons_unit_zero (S := S1x1x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

/-- At the last tile of a half the update sum, after its step, is copied to the half's [1, 1, 1] output block. -/
theorem updateOut_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1024x1024 .f32) (harg10 : arg10.IsWhole) (arg11 : Memref sig .tc .vmem S1x1024x1024 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1024x1024 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i) (x0 : Vec F S1024x1024 .f32) (x1 : Vec F S1024x1024 .bf16) (x2 : Vec F S1024x1024 .bf16) (x3 : Vec F S1024x128 .bf16) (x4 : Vec F S1024x128 .bf16) (x5 : Vec F S1x1 .f32) (x6 : Vec F S1x1 .f32) (x7 : Vec F S1x1 .f32) (xs0 : Vec F S1024x1024 .f32) (xs1 : Vec F S1x1 .f32) (xs2 : Vec F S1x1 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2 = k0_pay3 (k0_pay19 (k0_pay14 x0 x1 x3 x4 x6) xs2) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 xs1 xs2)]
  unfold kernelRun0_C
  dsimp only
  sl_unfold_words
  rw [View.canon_cons_unit_zero (S := S1x1x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x1024) hz2, View.ld_unit_zero (S := S1024x128) hz2, View.ld_unit_zero (S := S1x1) hz2, View.ld_unit_zero (S := S1x1024x1024) hz3, View.ld_unit_zero (S := S1x1x1) hz3, View.readCov_unit_zero (S := S1024x1024) _ hz2, View.readCov_unit_zero (S := S1x1) _ hz2]

end Cert.KernelIdeal.TileValues

end
-- ==== Proof.Accumulate.lean ====
/-
  What the buffers hold after each grid point.

  Within each half of the grid (8 consecutive points) the three accumulators hold, after point `n`, the sum of the
  shares of the half's tiles up to `n`: the first point of a half starts from zero, every later point adds its share
  to what the point before left; at the half's last point the accumulators are also copied to the half's output
  blocks.  After every point the row-output buffer holds the specification's blended rows of that point's tile.
  By induction on the point.
-/
import proofs.«126602_j18769007084097_2_alg».proof.Proof.TileSpec
import proofs.«126602_j18769007084097_2_alg».proof.Proof.TileValues
import Idealize.ShloMosaic.Lib.ValueLayout

noncomputable section

open scoped BigOperators

namespace Cert.KernelIdeal.Accumulate

open Idealize.ShloMosaic Idealize.ShloMosaic.TcCoe Idealize.ShloMosaic.ValueIdx Idealize.SL.Sem Cert.KernelIdeal Cert.KernelIdeal.Gen
open Cert.CellSpec (rowOf z1)
open Cert.KernelIdeal.TileSpec

/-! ## Sums over the tiles of a half, up to a point -/

/-- The sum of `T` over the tiles of `n`'s half, from the half's first tile up to `n`. -/
def soFar {β : Type*} [AddCommMonoid β] (T : ℕ → β) (n : ℕ) : β := ∑ i ∈ Finset.range (n % 8 + 1), T (n - n % 8 + i)

theorem soFar_first {β : Type*} [AddCommMonoid β] (T : ℕ → β) (n : ℕ) (h0 : n % 8 = 0) : soFar T n = T n := by
  unfold soFar
  rw [h0, Finset.sum_range_one]
  rfl

theorem soFar_step {β : Type*} [AddCommMonoid β] (T : ℕ → β) (n : ℕ) (h0 : ¬(n + 1) % 8 = 0) :
    soFar T (n + 1) = soFar T n + T (n + 1) := by
  unfold soFar
  have h1 : (n + 1) % 8 = n % 8 + 1 := by omega
  have h2 : n + 1 - (n % 8 + 1) = n - n % 8 := by omega
  rw [h1, h2, Finset.sum_range_succ, show n - n % 8 + (n % 8 + 1) = n + 1 from by omega]

/-- At the last point of a half the sum runs over the half's 8 tiles. -/
theorem soFar_last {β : Type*} [AddCommMonoid β] (T : ℕ → β) (n : ℕ) (h7 : n % 8 = 7) :
    soFar T n = ∑ k ∈ Finset.range 8, T (8 * (n / 8) + k) := by
  unfold soFar
  rw [h7]
  exact Finset.sum_congr rfl fun k _ => congrArg T (by omega)

/-! ## The invariant -/

variable (m : (ℓ : Loc nD τ sig) → Buf (Elt Ideal) ℓ) (c : Dev nD)

/-- The buffers after point `n`: rows, the three accumulators, and — at a half's last point — the three output blocks. -/
structure After (n : ℕ) (hn : n < cfg0.N) : Prop where
  rows : ∀ p j : Fin 1024, ((outsAt0 m c n hn).1 : FVec Ideal S1024x1024 .f32) (ix2 p j)
    = Cert.CellSpec.outAt (A0 m c) (A1 m c) (A2 m c) (A7 m c) (A8 m c) (rowOf n p) j
  hebb : ∀ h d : Fin 1024, ((outsAt0 m c n hn).2.2.2.2.1 : FVec Ideal S1024x1024 .f32) (ix2 h d)
    = soFar (fun k => hebbShare m c k h d) n
  forget : ((outsAt0 m c n hn).2.2.2.2.2.1 : FVec Ideal S1x1 .f32) (ix2 z1 z1) = soFar (gateShare m c (A3 m c) (A4 m c)) n
  update : ((outsAt0 m c n hn).2.2.2.2.2.2 : FVec Ideal S1x1 .f32) (ix2 z1 z1) = soFar (gateShare m c (A5 m c) (A6 m c)) n
  hebbOut : n % 8 = 7 → ∀ h d : Fin 1024, ((outsAt0 m c n hn).2.1 : FVec Ideal S1x1024x1024 .f32) (ix3 z1 h d)
    = soFar (fun k => hebbShare m c k h d) n
  forgetOut : n % 8 = 7 → ((outsAt0 m c n hn).2.2.1 : FVec Ideal S1x1x1 .f32) (ix3 z1 z1 z1)
    = soFar (gateShare m c (A3 m c) (A4 m c)) n
  updateOut : n % 8 = 7 → ((outsAt0 m c n hn).2.2.2.1 : FVec Ideal S1x1x1 .f32) (ix3 z1 z1 z1)
    = soFar (gateShare m c (A5 m c) (A6 m c)) n

/-! ## Zero starts and the copy-out, at coordinates -/

theorem zeroHebb_at (h d : Fin 1024) : k0_pay4 (F := Ideal) (ix2 h d) = 0 := by
  unfold k0_pay4
  exact (congrFun (shapeCast_self _ _) _).trans Ideal.ofBits_zero_f32

theorem zeroForget_at : k0_pay5 (F := Ideal) (ix2 z1 z1) = 0 := by
  unfold k0_pay5
  exact (congrFun (shapeCast_self _ _) _).trans Ideal.ofBits_zero_f32

theorem zeroUpdate_at : k0_pay6 (F := Ideal) (ix2 z1 z1) = 0 := by
  unfold k0_pay6
  exact (congrFun (shapeCast_self _ _) _).trans Ideal.ofBits_zero_f32

theorem hebbCopy_at (v : FVec Ideal S1024x1024 .f32) (h d : Fin 1024) : k0_pay1 (F := Ideal) v (ix3 z1 h d) = v (ix2 h d) := by
  unfold k0_pay1
  exact shapeCast_ab_1ab_apply (a := 1024) (b := 1024) v _ z1 h d

theorem forgetCopy_at (v : FVec Ideal S1x1 .f32) : k0_pay2 (F := Ideal) v (ix3 z1 z1 z1) = v (ix2 z1 z1) := by
  unfold k0_pay2
  exact shapeCast_ab_1ab_apply (a := 1) (b := 1) v _ z1 z1 z1

theorem updateCopy_at (v : FVec Ideal S1x1 .f32) : k0_pay3 (F := Ideal) v (ix3 z1 z1 z1) = v (ix2 z1 z1) := by
  unfold k0_pay3
  exact shapeCast_ab_1ab_apply (a := 1) (b := 1) v _ z1 z1 z1

/-! ## The induction -/

variable {m c} (hP : Packed m c)
include hP

theorem after : ∀ (n : ℕ) (hn : n < cfg0.N), After m c n hn
  | 0, hn => by
    have h17 : ¬(0 : ℕ) % 8 = 7 := by decide
    have e := outsAt0_A m c ⟨0, hn⟩ rfl h17
    refine ⟨fun p j => ?_, fun h d => ?_, ?_, ?_, fun h7 => absurd h7 h17, fun h7 => absurd h7 h17, fun h7 => absurd h7 h17⟩
    · rw [e]; dsimp only; rw [TileValues.rows_A]; exact rows_tile hP ⟨0, hn⟩ p j
    · rw [e]; dsimp only; rw [TileValues.hebb_A]
      refine (hebb_tile hP ⟨0, hn⟩ _ h d).trans ?_
      rw [zeroHebb_at, zero_add, soFar_first _ 0 rfl]
    · rw [e]; dsimp only; rw [TileValues.forget_A]
      refine (forget_tile hP ⟨0, hn⟩ _).trans ?_
      rw [zeroForget_at, zero_add, soFar_first _ 0 rfl]
    · rw [e]; dsimp only; rw [TileValues.update_A]
      refine (update_tile hP ⟨0, hn⟩ _).trans ?_
      rw [zeroUpdate_at, zero_add, soFar_first _ 0 rfl]
  | n + 1, hn => by
    have ih := after n (Nat.lt_of_succ_lt hn)
    by_cases h0 : (n + 1) % 8 = 0
    · have h1 : ¬(n + 1) % 8 = 7 := by omega
      have e := outsAt0_A m c ⟨n + 1, hn⟩ h0 h1
      refine ⟨fun p j => ?_, fun h d => ?_, ?_, ?_, fun h7 => absurd h7 h1, fun h7 => absurd h7 h1, fun h7 => absurd h7 h1⟩
      · rw [e]; dsimp only; rw [TileValues.rows_A]; exact rows_tile hP ⟨n + 1, hn⟩ p j
      · rw [e]; dsimp only; rw [TileValues.hebb_A]
        refine (hebb_tile hP ⟨n + 1, hn⟩ _ h d).trans ?_
        rw [zeroHebb_at, zero_add, soFar_first _ (n + 1) h0]
      · rw [e]; dsimp only; rw [TileValues.forget_A]
        refine (forget_tile hP ⟨n + 1, hn⟩ _).trans ?_
        rw [zeroForget_at, zero_add, soFar_first _ (n + 1) h0]
      · rw [e]; dsimp only; rw [TileValues.update_A]
        refine (update_tile hP ⟨n + 1, hn⟩ _).trans ?_
        rw [zeroUpdate_at, zero_add, soFar_first _ (n + 1) h0]
    · by_cases h1 : (n + 1) % 8 = 7
      · have e := outsAt0_C m c ⟨n + 1, hn⟩ h0 h1
        have hH : ∀ h d : Fin 1024, k0_pay17 (F := Ideal) (X m c ⟨n + 1, hn⟩) (k0_pay10 (X m c ⟨n + 1, hn⟩) (W m c ⟨n + 1, hn⟩) (Mb m c ⟨n + 1, hn⟩))
            ((outsAt0 m c n (Nat.lt_of_succ_lt hn)).2.2.2.2.1) (ix2 h d) = soFar (fun k => hebbShare m c k h d) (n + 1) := fun h d =>
          (hebb_tile hP ⟨n + 1, hn⟩ _ h d).trans ((congrArg (· + hebbShare m c (n + 1) h d) (ih.hebb h d)).trans (soFar_step _ n h0).symm)
        have hF : k0_pay18 (F := Ideal) (k0_pay13 (X m c ⟨n + 1, hn⟩) (W m c ⟨n + 1, hn⟩) (Gv m c ⟨n + 1, hn⟩) (Gx m c ⟨n + 1, hn⟩) (Bf m c ⟨n + 1, hn⟩))
            ((outsAt0 m c n (Nat.lt_of_succ_lt hn)).2.2.2.2.2.1) (ix2 z1 z1) = soFar (gateShare m c (A3 m c) (A4 m c)) (n + 1) :=
          (forget_tile hP ⟨n + 1, hn⟩ _).trans ((congrArg (· + gateShare m c (A3 m c) (A4 m c) (n + 1)) ih.forget).trans (soFar_step _ n h0).symm)
        have hU : k0_pay19 (F := Ideal) (k0_pay14 (X m c ⟨n + 1, hn⟩) (W m c ⟨n + 1, hn⟩) (Gv m c ⟨n + 1, hn⟩) (Gx m c ⟨n + 1, hn⟩) (Bu m c ⟨n + 1, hn⟩))
            ((outsAt0 m c n (Nat.lt_of_succ_lt hn)).2.2.2.2.2.2) (ix2 z1 z1) = soFar (gateShare m c (A5 m c) (A6 m c)) (n + 1) :=
          (update_tile hP ⟨n + 1, hn⟩ _).trans ((congrArg (· + gateShare m c (A5 m c) (A6 m c) (n + 1)) ih.update).trans (soFar_step _ n h0).symm)
        refine ⟨fun p j => ?_, fun h d => ?_, ?_, ?_, fun _ h d => ?_, fun _ => ?_, fun _ => ?_⟩
        · rw [e]; dsimp only; rw [TileValues.rows_C]; exact rows_tile hP ⟨n + 1, hn⟩ p j
        · rw [e]; dsimp only; rw [TileValues.hebb_C]; exact hH h d
        · rw [e]; dsimp only; rw [TileValues.forget_C]; exact hF
        · rw [e]; dsimp only; rw [TileValues.update_C]; exact hU
        · rw [e]; dsimp only; rw [TileValues.hebbOut_C]; exact (hebbCopy_at _ h d).trans (hH h d)
        · rw [e]; dsimp only; rw [TileValues.forgetOut_C]; exact (forgetCopy_at _).trans hF
        · rw [e]; dsimp only; rw [TileValues.updateOut_C]; exact (updateCopy_at _).trans hU
      · have e := outsAt0_B m c ⟨n + 1, hn⟩ h0 h1
        refine ⟨fun p j => ?_, fun h d => ?_, ?_, ?_, fun h7 => absurd h7 h1, fun h7 => absurd h7 h1, fun h7 => absurd h7 h1⟩
        · rw [e]; dsimp only; rw [TileValues.rows_B]; exact rows_tile hP ⟨n + 1, hn⟩ p j
        · rw [e]; dsimp only; rw [TileValues.hebb_B]
          exact (hebb_tile hP ⟨n + 1, hn⟩ _ h d).trans
            ((congrArg (· + hebbShare m c (n + 1) h d) (ih.hebb h d)).trans (soFar_step _ n h0).symm)
        · rw [e]; dsimp only; rw [TileValues.forget_B]
          exact (forget_tile hP ⟨n + 1, hn⟩ _).trans
            ((congrArg (· + gateShare m c (A3 m c) (A4 m c) (n + 1)) ih.forget).trans (soFar_step _ n h0).symm)
        · rw [e]; dsimp only; rw [TileValues.update_B]
          exact (update_tile hP ⟨n + 1, hn⟩ _).trans
            ((congrArg (· + gateShare m c (A5 m c) (A6 m c) (n + 1)) ih.update).trans (soFar_step _ n h0).symm)

end Cert.KernelIdeal.Accumulate

end
-- ==== Proof.KernelResult.lean ====
/-
  The kernel's two results.

  The row output is written back at every grid point, block `t` of the [16384, 1024] array being rows
  `1024 t … 1024 t + 1023`: the blocks tile the array, which therefore ends at the specification's first result.  The
  three partial-sum outputs are written back at the last point of each half only, block `t / 8` of a [2, …] array
  receiving the half's accumulated sum over its 8 tiles.  The host operations after the launch add the two halves,
  divide by 16384 and form mean(forget) · M + (mean(update) · 0.1) · (Hebbian sum / 16384); adding the halves' sums
  of the tiles' sums gives the sums over the whole batch, by regrouping alone.
-/
import proofs.«126602_j18769007084097_2_alg».proof.Proof.Accumulate
import Idealize.ShloMosaic.Lib.Pipeline.Value
import Idealize.ShloMosaic.Lib.StableHlo.Run
import Idealize.ShloMosaic.Lib.ValueLayout

noncomputable section

open scoped BigOperators

namespace Cert.KernelIdeal.KernelResult

open Idealize.ShloMosaic Idealize.ShloMosaic.TcCoe Idealize.ShloMosaic.ValueIdx Idealize.SL.Sem Cert.KernelIdeal Cert.KernelIdeal.Gen
open Idealize.ShloMosaic.Pipeline (Dat)
open Cert.CellSpec (rowOf rowOf_val z1)
open Cert.KernelIdeal.TileSpec Cert.KernelIdeal.Accumulate

variable (m : (ℓ : Loc nD τ sig) → Buf (Elt Ideal) ℓ) (c : Dev nD)

/-! ## What the partial-sum arrays end at -/

/-- Half `i 0`'s Hebbian sum at `(i 1, i 2)`. -/
def hebbHalf (i : S2x1024x1024.Idx) : EReal := ∑ k ∈ Finset.range 8, hebbShare m c (8 * (i 0).val + k) (i 1) (i 2)

/-- Half `i 0`'s sum of a gate. -/
def gateHalf (gw : FVec Ideal S1x2048 .f32) (gb : FVec Ideal S1 .f32) (i : S2x1x1.Idx) : EReal :=
  ∑ k ∈ Finset.range 8, gateShare m c gw gb (8 * (i 0).val + k)

/-! ## The windows' blocks -/

/-- The row output's block index at point `t` is `(t, 0)`. -/
theorem rowsOut_index : ∀ t : Fin cfg0.N, win0_8.index t 0 = t.val ∧ win0_8.index t 1 = 0 :=
  (by decide +kernel : ∀ t : Fin grid0.N, win0_8.index t 0 = t.val ∧ win0_8.index t 1 = 0)

theorem rowsOut_mem (t : Fin cfg0.N) (i : S16384x1024.Idx) :
    i ∈ ((cfg0.win 8).blk t).view.set ↔ ∀ a : Fin 2, win0_8.index t a * S1024x1024.size a ≤ (i a).val
      ∧ (i a).val < win0_8.index t a * S1024x1024.size a + S1024x1024.size a := by
  show i ∈ ((View.whole main_v29_0).slice (win0_8.rect t)).set ↔ _
  rw [View.set_slice_whole, Rect.mem_set_unit]
  exact Iff.rfl

/-- Output window 9's block index at point `t` is the half `t / 8`. -/
theorem hebbOut_index : ∀ t : Fin cfg0.N, win0_9.index t 0 = t.val / 8 ∧ win0_9.index t 1 = 0 ∧ win0_9.index t 2 = 0 :=
  (by decide +kernel : ∀ t : Fin grid0.N, win0_9.index t 0 = t.val / 8 ∧ win0_9.index t 1 = 0 ∧ win0_9.index t 2 = 0)

theorem hebbOut_mem (t : Fin cfg0.N) (i : S2x1024x1024.Idx) :
    i ∈ ((cfg0.win 9).blk t).view.set ↔ ∀ a : Fin 3, win0_9.index t a * S1x1024x1024.size a ≤ (i a).val
      ∧ (i a).val < win0_9.index t a * S1x1024x1024.size a + S1x1024x1024.size a := by
  show i ∈ ((View.whole main_v29_1).slice (win0_9.rect t)).set ↔ _
  rw [View.set_slice_whole, Rect.mem_set_unit]
  exact Iff.rfl

/-- Output window 10's block index at point `t` is the half `t / 8`. -/
theorem forgetOut_index : ∀ t : Fin cfg0.N, win0_10.index t 0 = t.val / 8 ∧ win0_10.index t 1 = 0 ∧ win0_10.index t 2 = 0 :=
  (by decide +kernel : ∀ t : Fin grid0.N, win0_10.index t 0 = t.val / 8 ∧ win0_10.index t 1 = 0 ∧ win0_10.index t 2 = 0)

theorem forgetOut_mem (t : Fin cfg0.N) (i : S2x1x1.Idx) :
    i ∈ ((cfg0.win 10).blk t).view.set ↔ ∀ a : Fin 3, win0_10.index t a * S1x1x1.size a ≤ (i a).val
      ∧ (i a).val < win0_10.index t a * S1x1x1.size a + S1x1x1.size a := by
  show i ∈ ((View.whole main_v29_2).slice (win0_10.rect t)).set ↔ _
  rw [View.set_slice_whole, Rect.mem_set_unit]
  exact Iff.rfl

/-- Output window 11's block index at point `t` is the half `t / 8`. -/
theorem updateOut_index : ∀ t : Fin cfg0.N, win0_11.index t 0 = t.val / 8 ∧ win0_11.index t 1 = 0 ∧ win0_11.index t 2 = 0 :=
  (by decide +kernel : ∀ t : Fin grid0.N, win0_11.index t 0 = t.val / 8 ∧ win0_11.index t 1 = 0 ∧ win0_11.index t 2 = 0)

theorem updateOut_mem (t : Fin cfg0.N) (i : S2x1x1.Idx) :
    i ∈ ((cfg0.win 11).blk t).view.set ↔ ∀ a : Fin 3, win0_11.index t a * S1x1x1.size a ≤ (i a).val
      ∧ (i a).val < win0_11.index t a * S1x1x1.size a + S1x1x1.size a := by
  show i ∈ ((View.whole main_v29_3).slice (win0_11.rect t)).set ↔ _
  rw [View.set_slice_whole, Rect.mem_set_unit]
  exact Iff.rfl

variable {m c} (hP : Packed m c)
include hP

/-! ## The row output -/

theorem rows_flushed (t : Fin cfg0.N) :
    (dats m 0 c).flushed 8 t = ((cfg0.win 8).blk t).view.read (Elt Ideal)
      (Cert.CellSpec.out (A0 m c) (A1 m c) (A2 m c) (A7 m c) (A8 m c)) := by
  have hi := rowsOut_index t
  have hN : t.val < 16 := lt_of_lt_of_eq t.isLt N_0
  show (cfg0.win 8).cut (grid0.coords t) ((dats m 0 c).after 8 t) = _
  rw [after0_8]
  funext j
  obtain ⟨p, q, rfl⟩ : ∃ p q : Fin 1024, j = ix2 p q := ⟨j 0, j 1, eq_ix2 j⟩
  have e0 : (((cfg0.win 8).blk t).view.emb (ix2 p q)) 0 = rowOf t.val p := Fin.ext (by
    show win0_8.index t 0 * 1024 + 1 * p.val = (rowOf t.val p).val
    rw [hi.1, rowOf_val hN]; omega)
  have e1 : (((cfg0.win 8).blk t).view.emb (ix2 p q)) 1 = q := Fin.ext (by
    show win0_8.index t 1 * 1024 + 1 * q.val = q.val
    rw [hi.2]; omega)
  show ((outsAt0 m c t.val t.isLt).1 : FVec Ideal S1024x1024 .f32) (ix2 p q)
    = Cert.CellSpec.outAt (A0 m c) (A1 m c) (A2 m c) (A7 m c) (A8 m c) ((((cfg0.win 8).blk t).view.emb (ix2 p q)) 0)
        ((((cfg0.win 8).blk t).view.emb (ix2 p q)) 1)
  rw [e0, e1]
  exact (after hP t.val t.isLt).rows p q

theorem rows_cover (i : S16384x1024.Idx) :
    ∃ t : Fin cfg0.N, (cfg0.win 8).flush t = true ∧ i ∈ ((cfg0.win 8).blk t).view.set := by
  have h0 : (i 0).val < 16384 := (i 0).isLt
  have h1 : (i 1).val < 1024 := (i 1).isLt
  have hN : cfg0.N = 16 := N_0
  have ht : (i 0).val / 1024 < cfg0.N := by rw [hN]; omega
  have hi := rowsOut_index ⟨(i 0).val / 1024, ht⟩
  refine ⟨⟨(i 0).val / 1024, ht⟩, flush0_8 _, ?_⟩
  rw [rowsOut_mem]
  intro a
  match a with
  | ⟨0, _⟩ =>
    show win0_8.index ⟨(i 0).val / 1024, ht⟩ 0 * 1024 ≤ (i 0).val ∧ (i 0).val < win0_8.index ⟨(i 0).val / 1024, ht⟩ 0 * 1024 + 1024
    rw [hi.1]; dsimp only; omega
  | ⟨1, _⟩ =>
    show win0_8.index ⟨(i 0).val / 1024, ht⟩ 1 * 1024 ≤ (i 1).val ∧ (i 1).val < win0_8.index ⟨(i 0).val / 1024, ht⟩ 1 * 1024 + 1024
    rw [hi.2]; omega

/-- The row output ends at the specification's first result. -/
theorem rows_final : (dats m 0 c).arrAt 8 cfg0.N = Cert.CellSpec.out (A0 m c) (A1 m c) (A2 m c) (A7 m c) (A8 m c) :=
  (dats m 0 c).arrAt_eq_of_cover 8 _ (fun t _ => rows_flushed hP t) (rows_cover hP)

/-! ## The Hebbian partial sums -/

theorem hebbOut_flushed (t : Fin cfg0.N) (hf : (cfg0.win 9).flush t = true) :
    (dats m 0 c).flushed 9 t = ((cfg0.win 9).blk t).view.read (Elt Ideal) (hebbHalf m c) := by
  have hi := hebbOut_index t
  have h7 : t.val % 8 = 7 := (flush0_9 t).mp hf
  show (cfg0.win 9).cut (grid0.coords t) ((dats m 0 c).after 9 t) = _
  rw [after0_9]
  funext j
  obtain ⟨u, h, d, rfl⟩ : ∃ (u : Fin 1) (h d : Fin 1024), j = ix3 u h d := ⟨j 0, j 1, j 2, eq_ix3 j⟩
  obtain rfl : u = z1 := Subsingleton.elim _ _
  have e0 : ((((cfg0.win 9).blk t).view.emb (ix3 z1 h d)) 0).val = t.val / 8 := by
    show win0_9.index t 0 * 1 + 1 * 0 = t.val / 8
    rw [hi.1]; omega
  have e1 : (((cfg0.win 9).blk t).view.emb (ix3 z1 h d)) 1 = h := Fin.ext (by
    show win0_9.index t 1 * 1024 + 1 * h.val = h.val
    rw [hi.2.1]; omega)
  have e2 : (((cfg0.win 9).blk t).view.emb (ix3 z1 h d)) 2 = d := Fin.ext (by
    show win0_9.index t 2 * 1024 + 1 * d.val = d.val
    rw [hi.2.2]; omega)
  show ((outsAt0 m c t.val t.isLt).2.1 : FVec Ideal S1x1024x1024 .f32) (ix3 z1 h d)
    = ∑ k ∈ Finset.range 8, hebbShare m c (8 * ((((cfg0.win 9).blk t).view.emb (ix3 z1 h d)) 0).val + k)
        ((((cfg0.win 9).blk t).view.emb (ix3 z1 h d)) 1) ((((cfg0.win 9).blk t).view.emb (ix3 z1 h d)) 2)
  rw [e0, e1, e2]
  exact ((after hP t.val t.isLt).hebbOut h7 h d).trans (soFar_last _ _ h7)

theorem hebbOut_cover (i : S2x1024x1024.Idx) :
    ∃ t : Fin cfg0.N, (cfg0.win 9).flush t = true ∧ i ∈ ((cfg0.win 9).blk t).view.set := by
  have h0 : (i 0).val < 2 := (i 0).isLt
  have h1 : (i 1).val < 1024 := (i 1).isLt
  have h2 : (i 2).val < 1024 := (i 2).isLt
  have hN : cfg0.N = 16 := N_0
  have ht : 8 * (i 0).val + 7 < cfg0.N := by rw [hN]; omega
  have hi := hebbOut_index ⟨8 * (i 0).val + 7, ht⟩
  refine ⟨⟨8 * (i 0).val + 7, ht⟩, (flush0_9 _).mpr (by dsimp only; omega), ?_⟩
  rw [hebbOut_mem]
  intro a
  match a with
  | ⟨0, _⟩ =>
    show win0_9.index ⟨8 * (i 0).val + 7, ht⟩ 0 * 1 ≤ (i 0).val ∧ (i 0).val < win0_9.index ⟨8 * (i 0).val + 7, ht⟩ 0 * 1 + 1
    rw [hi.1]; dsimp only; omega
  | ⟨1, _⟩ =>
    show win0_9.index ⟨8 * (i 0).val + 7, ht⟩ 1 * 1024 ≤ (i 1).val ∧ (i 1).val < win0_9.index ⟨8 * (i 0).val + 7, ht⟩ 1 * 1024 + 1024
    rw [hi.2.1]; omega
  | ⟨2, _⟩ =>
    show win0_9.index ⟨8 * (i 0).val + 7, ht⟩ 2 * 1024 ≤ (i 2).val ∧ (i 2).val < win0_9.index ⟨8 * (i 0).val + 7, ht⟩ 2 * 1024 + 1024
    rw [hi.2.2]; omega

/-- Half `s` of the Hebbian output ends at the half's sum over its 8 tiles. -/
theorem hebbOut_final : (dats m 0 c).arrAt 9 cfg0.N = hebbHalf m c :=
  (dats m 0 c).arrAt_eq_of_cover 9 _ (fun t hf => hebbOut_flushed hP t hf) (hebbOut_cover hP)

/-! ## The forget gate's partial sums -/

theorem forgetOut_flushed (t : Fin cfg0.N) (hf : (cfg0.win 10).flush t = true) :
    (dats m 0 c).flushed 10 t = ((cfg0.win 10).blk t).view.read (Elt Ideal) (gateHalf m c (A3 m c) (A4 m c)) := by
  have hi := forgetOut_index t
  have h7 : t.val % 8 = 7 := (flush0_10 t).mp hf
  show (cfg0.win 10).cut (grid0.coords t) ((dats m 0 c).after 10 t) = _
  rw [after0_10]
  funext j
  obtain ⟨u, v, w, rfl⟩ : ∃ (u v w : Fin 1), j = ix3 u v w := ⟨j 0, j 1, j 2, eq_ix3 j⟩
  obtain rfl : u = z1 := Subsingleton.elim _ _
  obtain rfl : v = z1 := Subsingleton.elim _ _
  obtain rfl : w = z1 := Subsingleton.elim _ _
  have e0 : ((((cfg0.win 10).blk t).view.emb (ix3 z1 z1 z1)) 0).val = t.val / 8 := by
    show win0_10.index t 0 * 1 + 1 * 0 = t.val / 8
    rw [hi.1]; omega
  show ((outsAt0 m c t.val t.isLt).2.2.1 : FVec Ideal S1x1x1 .f32) (ix3 z1 z1 z1)
    = ∑ k ∈ Finset.range 8, gateShare m c (A3 m c) (A4 m c) (8 * ((((cfg0.win 10).blk t).view.emb (ix3 z1 z1 z1)) 0).val + k)
  rw [e0]
  exact ((after hP t.val t.isLt).forgetOut h7).trans (soFar_last _ _ h7)

theorem forgetOut_cover (i : S2x1x1.Idx) :
    ∃ t : Fin cfg0.N, (cfg0.win 10).flush t = true ∧ i ∈ ((cfg0.win 10).blk t).view.set := by
  have h0 : (i 0).val < 2 := (i 0).isLt
  have h1 : (i 1).val < 1 := (i 1).isLt
  have h2 : (i 2).val < 1 := (i 2).isLt
  have hN : cfg0.N = 16 := N_0
  have ht : 8 * (i 0).val + 7 < cfg0.N := by rw [hN]; omega
  have hi := forgetOut_index ⟨8 * (i 0).val + 7, ht⟩
  refine ⟨⟨8 * (i 0).val + 7, ht⟩, (flush0_10 _).mpr (by dsimp only; omega), ?_⟩
  rw [forgetOut_mem]
  intro a
  match a with
  | ⟨0, _⟩ =>
    show win0_10.index ⟨8 * (i 0).val + 7, ht⟩ 0 * 1 ≤ (i 0).val ∧ (i 0).val < win0_10.index ⟨8 * (i 0).val + 7, ht⟩ 0 * 1 + 1
    rw [hi.1]; dsimp only; omega
  | ⟨1, _⟩ =>
    show win0_10.index ⟨8 * (i 0).val + 7, ht⟩ 1 * 1 ≤ (i 1).val ∧ (i 1).val < win0_10.index ⟨8 * (i 0).val + 7, ht⟩ 1 * 1 + 1
    rw [hi.2.1]; omega
  | ⟨2, _⟩ =>
    show win0_10.index ⟨8 * (i 0).val + 7, ht⟩ 2 * 1 ≤ (i 2).val ∧ (i 2).val < win0_10.index ⟨8 * (i 0).val + 7, ht⟩ 2 * 1 + 1
    rw [hi.2.2]; omega

theorem forgetOut_final : (dats m 0 c).arrAt 10 cfg0.N = gateHalf m c (A3 m c) (A4 m c) :=
  (dats m 0 c).arrAt_eq_of_cover 10 _ (fun t hf => forgetOut_flushed hP t hf) (forgetOut_cover hP)

/-! ## The update gate's partial sums -/

theorem updateOut_flushed (t : Fin cfg0.N) (hf : (cfg0.win 11).flush t = true) :
    (dats m 0 c).flushed 11 t = ((cfg0.win 11).blk t).view.read (Elt Ideal) (gateHalf m c (A5 m c) (A6 m c)) := by
  have hi := updateOut_index t
  have h7 : t.val % 8 = 7 := (flush0_11 t).mp hf
  show (cfg0.win 11).cut (grid0.coords t) ((dats m 0 c).after 11 t) = _
  rw [after0_11]
  funext j
  obtain ⟨u, v, w, rfl⟩ : ∃ (u v w : Fin 1), j = ix3 u v w := ⟨j 0, j 1, j 2, eq_ix3 j⟩
  obtain rfl : u = z1 := Subsingleton.elim _ _
  obtain rfl : v = z1 := Subsingleton.elim _ _
  obtain rfl : w = z1 := Subsingleton.elim _ _
  have e0 : ((((cfg0.win 11).blk t).view.emb (ix3 z1 z1 z1)) 0).val = t.val / 8 := by
    show win0_11.index t 0 * 1 + 1 * 0 = t.val / 8
    rw [hi.1]; omega
  show ((outsAt0 m c t.val t.isLt).2.2.2.1 : FVec Ideal S1x1x1 .f32) (ix3 z1 z1 z1)
    = ∑ k ∈ Finset.range 8, gateShare m c (A5 m c) (A6 m c) (8 * ((((cfg0.win 11).blk t).view.emb (ix3 z1 z1 z1)) 0).val + k)
  rw [e0]
  exact ((after hP t.val t.isLt).updateOut h7).trans (soFar_last _ _ h7)

theorem updateOut_cover (i : S2x1x1.Idx) :
    ∃ t : Fin cfg0.N, (cfg0.win 11).flush t = true ∧ i ∈ ((cfg0.win 11).blk t).view.set := by
  have h0 : (i 0).val < 2 := (i 0).isLt
  have h1 : (i 1).val < 1 := (i 1).isLt
  have h2 : (i 2).val < 1 := (i 2).isLt
  have hN : cfg0.N = 16 := N_0
  have ht : 8 * (i 0).val + 7 < cfg0.N := by rw [hN]; omega
  have hi := updateOut_index ⟨8 * (i 0).val + 7, ht⟩
  refine ⟨⟨8 * (i 0).val + 7, ht⟩, (flush0_11 _).mpr (by dsimp only; omega), ?_⟩
  rw [updateOut_mem]
  intro a
  match a with
  | ⟨0, _⟩ =>
    show win0_11.index ⟨8 * (i 0).val + 7, ht⟩ 0 * 1 ≤ (i 0).val ∧ (i 0).val < win0_11.index ⟨8 * (i 0).val + 7, ht⟩ 0 * 1 + 1
    rw [hi.1]; dsimp only; omega
  | ⟨1, _⟩ =>
    show win0_11.index ⟨8 * (i 0).val + 7, ht⟩ 1 * 1 ≤ (i 1).val ∧ (i 1).val < win0_11.index ⟨8 * (i 0).val + 7, ht⟩ 1 * 1 + 1
    rw [hi.2.1]; omega
  | ⟨2, _⟩ =>
    show win0_11.index ⟨8 * (i 0).val + 7, ht⟩ 2 * 1 ≤ (i 2).val ∧ (i 2).val < win0_11.index ⟨8 * (i 0).val + 7, ht⟩ 2 * 1 + 1
    rw [hi.2.2]; omega

theorem updateOut_final : (dats m 0 c).arrAt 11 cfg0.N = gateHalf m c (A5 m c) (A6 m c) :=
  (dats m 0 c).arrAt_eq_of_cover 11 _ (fun t hf => updateOut_flushed hP t hf) (updateOut_cover hP)

/-! ## The host operations after the launch -/

omit hP in
/-- A scalar spread over any shape reads the scalar everywhere. -/
theorem spread0 {t : Shape} (dims : Fin S_.rank → Fin t.rank) (hb : S_.BroadcastsInDim t dims) (v : FVec Ideal S_ .f32) (j : t.Idx) :
    broadcastInDim t dims hb v j = v ix0 :=
  broadcastInDim_apply dims hb v j ix0 (fun a => a.elim0)

/-- The two halves. -/
abbrev s0 : Fin 2 := ⟨0, by norm_num⟩
abbrev s1 : Fin 2 := ⟨1, by norm_num⟩

omit hP in
/-- Half `s` of a [2, 1, 1] array, cut out and read as a scalar. -/
theorem halfScalar (x : FVec Ideal S2x1x1 .f32) (s : Fin 2) (hs : S2x1x1.Slices ![s.val, 0, 0] S1x1x1) (hc : S1x1x1.ShapeCasts S_)
    (j : S_.Idx) : shapeCast S_ (extractStridedSlice S1x1x1 ![s.val, 0, 0] x hs) hc j = x (ix3 s z1 z1) := by
  refine (shapeCast_apply _ hc j (ix3 z1 z1 z1) ?_).trans (extractStridedSlice_apply _ x hs (ix3 z1 z1 z1) (ix3 s z1 z1) fun a => ?_)
  · have hr : (S_.rowMajor j).val = 0 := Shape.rowMajorPi_zero _ _
    rw [hr, Shape.rowMajor_val_three]
    rfl
  · match a with
    | ⟨0, _⟩ => rfl
    | ⟨1, _⟩ => rfl
    | ⟨2, _⟩ => rfl

omit hP in
/-- Half `s` of a [2, 1024, 1024] array, cut out and read as a matrix. -/
theorem halfMatrix (x : FVec Ideal S2x1024x1024 .f32) (s : Fin 2) (hs : S2x1024x1024.Slices ![s.val, 0, 0] S1x1024x1024)
    (hc : S1x1024x1024.ShapeCasts S1024x1024) (h d : Fin 1024) :
    shapeCast S1024x1024 (extractStridedSlice S1x1024x1024 ![s.val, 0, 0] x hs) hc (ix2 h d) = x (ix3 s h d) := by
  refine (shapeCast_1ab_ab_apply (a := 1024) (b := 1024) _ hc h d).trans
    (extractStridedSlice_apply _ x hs (ix3 (0 : Fin 1) h d) (ix3 s h d) fun a => ?_)
  match a with
  | ⟨0, _⟩ => rfl
  | ⟨1, _⟩ => exact (Nat.zero_add _).symm
  | ⟨2, _⟩ => exact (Nat.zero_add _).symm

/-- The lines after the launch as one function of the three partial-sum arrays and the memory: the halves added, the
    gate sums and the Hebbian sum divided by 16384, and mean(forget) · M + (mean(update) · 0.1) · Hebbian mean. -/
def tail (Fp Up : FVec Ideal S2x1x1 .f32) (Dp : FVec Ideal S2x1024x1024 .f32) (M2 : FVec Ideal S1024x1024 .f32) :
    FVec Ideal S1024x1024 .f32 :=
  addf
    (mulf (broadcastInDim S1024x1024 ![] Facts₀.bcast_S_S1024x1024
        (Host.divf (addf (shapeCast S_ (extractStridedSlice S1x1x1 ![0, 0, 0] Fp Facts₀.slices_S2x1x1_S1x1x1_0_0_0) Facts₀.shapeCasts_S1x1x1_S_) (shapeCast S_ (extractStridedSlice S1x1x1 ![1, 0, 0] Fp Facts₀.slices_S2x1x1_S1x1x1_1_0_0) Facts₀.shapeCasts_S1x1x1_S_)) (constant (F := Ideal) S_ .f32 0x46800000#32))) M2)
    (mulf (broadcastInDim S1024x1024 ![] Facts₀.bcast_S_S1024x1024
        (mulf (Host.divf (addf (shapeCast S_ (extractStridedSlice S1x1x1 ![0, 0, 0] Up Facts₀.slices_S2x1x1_S1x1x1_0_0_0) Facts₀.shapeCasts_S1x1x1_S_) (shapeCast S_ (extractStridedSlice S1x1x1 ![1, 0, 0] Up Facts₀.slices_S2x1x1_S1x1x1_1_0_0) Facts₀.shapeCasts_S1x1x1_S_)) (constant (F := Ideal) S_ .f32 0x46800000#32))
          (constant (F := Ideal) S_ .f32 0x3DCCCCCD#32)))
      (Host.divf (addf (shapeCast S1024x1024 (extractStridedSlice S1x1024x1024 ![0, 0, 0] Dp Facts₀.slices_S2x1024x1024_S1x1024x1024_0_0_0) Facts₀.shapeCasts_S1x1024x1024_S1024x1024) (shapeCast S1024x1024 (extractStridedSlice S1x1024x1024 ![1, 0, 0] Dp Facts₀.slices_S2x1024x1024_S1x1024x1024_1_0_0) Facts₀.shapeCasts_S1x1024x1024_S1024x1024))
        (broadcastInDim S1024x1024 ![] Facts₀.bcast_S_S1024x1024 (constant (F := Ideal) S_ .f32 0x46800000#32))))

omit hP in
theorem tail_at (Fp Up : FVec Ideal S2x1x1 .f32) (Dp : FVec Ideal S2x1024x1024 .f32) (M2 : FVec Ideal S1024x1024 .f32) (h d : Fin 1024) :
    tail Fp Up Dp M2 (ix2 h d)
      = Ideal.div (Fp (ix3 s0 z1 z1) + Fp (ix3 s1 z1 z1)) Cert.CellSpec.batch * M2 (ix2 h d)
        + (Ideal.div (Up (ix3 s0 z1 z1) + Up (ix3 s1 z1 z1)) Cert.CellSpec.batch * Cert.CellSpec.rate)
          * Ideal.div (Dp (ix3 s0 h d) + Dp (ix3 s1 h d)) Cert.CellSpec.batch := by
  unfold tail
  simp only [addf_apply, mulf_apply]
  refine congrArg₂ (· + ·) (congrArg₂ (· * ·) ?_ rfl) (congrArg₂ (· * ·) ?_ ?_)
  · refine (spread0 _ _ _ _).trans ?_
    exact congrArg₂ Ideal.div (congrArg₂ (· + ·) (halfScalar Fp s0 _ _ ix0) (halfScalar Fp s1 _ _ ix0)) rfl
  · refine (spread0 _ _ _ _).trans ?_
    exact congrArg₂ (· * ·) (congrArg₂ Ideal.div (congrArg₂ (· + ·) (halfScalar Up s0 _ _ ix0) (halfScalar Up s1 _ _ ix0)) rfl) rfl
  · exact congrArg₂ Ideal.div (congrArg₂ (· + ·) (halfMatrix Dp s0 _ _ h d) (halfMatrix Dp s1 _ _ h d)) (spread0 _ _ _ _)

/-! ## The two halves add up to the batch -/

omit hP in
theorem halves_gate (gw : FVec Ideal S1x2048 .f32) (gb : FVec Ideal S1 .f32) :
    gateHalf m c gw gb (ix3 s0 z1 z1) + gateHalf m c gw gb (ix3 s1 z1 z1) = Cert.CellSpec.gateSum (A0 m c) (A1 m c) gw gb := by
  unfold gateHalf gateShare Cert.CellSpec.gateSum
  refine Eq.trans ?_ (Cert.CellSpec.sum_batch fun b => Cert.CellSpec.gate (A0 m c) (A1 m c) gw gb b)
  refine congrArg₂ (· + ·) (Finset.sum_congr rfl fun k _ => ?_) (Finset.sum_congr rfl fun k _ => ?_)
  · show ∑ p : Fin 1024, Cert.CellSpec.gate (A0 m c) (A1 m c) gw gb (rowOf (8 * 0 + k) p) = _
    rw [Nat.mul_zero, Nat.zero_add]
  · show ∑ p : Fin 1024, Cert.CellSpec.gate (A0 m c) (A1 m c) gw gb (rowOf (8 * 1 + k) p) = _
    rw [Nat.mul_one]

omit hP in
theorem halves_hebb (h d : Fin 1024) :
    hebbHalf m c (ix3 s0 h d) + hebbHalf m c (ix3 s1 h d) = Cert.CellSpec.hebb (A0 m c) (A1 m c) (A2 m c) h d := by
  unfold hebbHalf hebbShare Cert.CellSpec.hebb
  refine Eq.trans ?_ (Cert.CellSpec.sum_batch fun b =>
    (Cert.CellSpec.proj (A0 m c) (A1 m c) b h - Cert.CellSpec.pred (A0 m c) (A2 m c) b h) * A0 m c (ix2 b d))
  refine congrArg₂ (· + ·) (Finset.sum_congr rfl fun k _ => ?_) (Finset.sum_congr rfl fun k _ => ?_)
  · show ∑ p : Fin 1024, (Cert.CellSpec.proj (A0 m c) (A1 m c) (rowOf (8 * 0 + k) p) h - Cert.CellSpec.pred (A0 m c) (A2 m c) (rowOf (8 * 0 + k) p) h)
        * A0 m c (ix2 (rowOf (8 * 0 + k) p) d) = _
    rw [Nat.mul_zero, Nat.zero_add]
  · show ∑ p : Fin 1024, (Cert.CellSpec.proj (A0 m c) (A1 m c) (rowOf (8 * 1 + k) p) h - Cert.CellSpec.pred (A0 m c) (A2 m c) (rowOf (8 * 1 + k) p) h)
        * A0 m c (ix2 (rowOf (8 * 1 + k) p) d) = _
    rw [Nat.mul_one]

/-! ## The second result -/

set_option maxHeartbeats 4000000 in
/-- The buffer the lines after the launch leave the updated memory in ends at the specification's second result. -/
theorem newM_final : Pipeline.afterTail₀ cfgs (dats m) 0 (V0 m) [hostOps1] c main_v54
    = Cert.CellSpec.newM (A0 m c) (A1 m c) (A2 m c) (A3 m c) (A4 m c) (A5 m c) (A6 m c) := by
  have hF : Pipeline.withArrays (cfgs 0).spec c (V0 m c) (fun w => (dats m 0 c).arrAt w (cfgs 0).N) (Proc.devRef .tc main_v29_2)
      = gateHalf m c (A3 m c) (A4 m c) :=
    (Pipeline.withArrays_arr spec0 launch0.win.arr_inj c _ _ 10).trans (forgetOut_final hP)
  have hU : Pipeline.withArrays (cfgs 0).spec c (V0 m c) (fun w => (dats m 0 c).arrAt w (cfgs 0).N) (Proc.devRef .tc main_v29_3)
      = gateHalf m c (A5 m c) (A6 m c) :=
    (Pipeline.withArrays_arr spec0 launch0.win.arr_inj c _ _ 11).trans (updateOut_final hP)
  have hD : Pipeline.withArrays (cfgs 0).spec c (V0 m c) (fun w => (dats m 0 c).arrAt w (cfgs 0).N) (Proc.devRef .tc main_v29_1)
      = hebbHalf m c :=
    (Pipeline.withArrays_arr spec0 launch0.win.arr_inj c _ _ 9).trans (hebbOut_final hP)
  have hM : Pipeline.withArrays (cfgs 0).spec c (V0 m c) (fun w => (dats m 0 c).arrAt w (cfgs 0).N) (Proc.devRef .tc main_arg2)
      = A2 m c :=
    (Pipeline.withArrays_of_ne _ c (V0 m c) _ main_arg2 (by exact (by decide : ∀ w, Pipeline.arrRef spec0 w ≠ main_arg2))).trans
      (V_main_arg2 m c)
  have e : Pipeline.afterTail₀ cfgs (dats m) 0 (V0 m) [hostOps1] c main_v54
      = tail (gateHalf m c (A3 m c) (A4 m c)) (gateHalf m c (A5 m c) (A6 m c)) (hebbHalf m c) (A2 m c) := by
    unfold Pipeline.afterTail₀
    show StableHlo.after hostOps1 _ (Proc.devRef .tc main_v54) = _
    after_results
    rw [hF, hU, hD, hM]
    rfl
  rw [e]
  funext i
  obtain ⟨h, d, rfl⟩ : ∃ h d : Fin 1024, i = ix2 h d := ⟨i 0, i 1, eq_ix2 i⟩
  rw [tail_at, halves_gate, halves_gate, halves_hebb]
  rfl

/-! ## The kernel's run -/

omit hP in
/-- Every weakly fair execution of the kernel's program terminates with the first result at the specification's
    blended rows, the second at its updated memory, and the arguments unchanged. -/
theorem run (ρ : Dev nD → PrngReg) (hPs : ∀ c, Packed m c) :
    θ_run defs (onTc (τ := τ) (main (F := Ideal))) ⟨m, fun _ => 0, ρ⟩ fun r => ∀ c : Dev nD,
      r.2.mem ((c : Thread nD τ).loc main_v29_0) = Cert.CellSpec.out (A0 m c) (A1 m c) (A2 m c) (A7 m c) (A8 m c)
      ∧ r.2.mem ((c : Thread nD τ).loc main_v54)
          = Cert.CellSpec.newM (A0 m c) (A1 m c) (A2 m c) (A3 m c) (A4 m c) (A5 m c) (A6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
      ⟨((h c).1 8).trans (rows_final (hPs c)),
        ((h c).2 main_v54 (Pipeline.mem_restRefs_of main_v54 rfl (by decide))).trans (newM_final (hPs c)),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c),
        ((h c).2 main_arg6 (Pipeline.mem_restRefs_of main_arg6 (by decide) (by decide))).trans (W_main_arg6 m (dats m) c),
        ((h c).2 main_arg7 (Pipeline.mem_restRefs_of main_arg7 (by decide) (by decide))).trans (W_main_arg7 m (dats m) c),
        ((h c).2 main_arg8 (Pipeline.mem_restRefs_of main_arg8 (by decide) (by decide))).trans (W_main_arg8 m (dats m) c)⟩)
    (run_main m ρ)

end Cert.KernelIdeal.KernelResult

end
-- ==== Proof.lean ====
/-
  Both programs compute a gated memory cell over a batch of 16384 rows x of width 1024: the projection
  v = x · V_wᵀ and the memory's prediction y = x · M; a mixing gate s(v · sm_w + sm_b) blending v and y row by
  row (the first result); and the memory update mean(forget) · M + (mean(update) · 0.1) · (errᵀ · x / 16384) with
  err = v − y and the two gates the logistic of the 2048-wide row (v | x) against the gate's weights (the second
  result).  The kernel walks the batch as 2 × 8 tiles of 1024 rows, keeps the three batch sums per half of the batch and
  adds the halves afterwards, and meets the gate weights packed column-wise in two matrices; the reference sums the
  whole batch at once.  Both end at one and the same pair of functions of the arguments (CellSpec): the logistic
  function is the same on both sides, a change of float format is the identity on the extended reals, and a finite
  sum may be regrouped freely — so the data's finiteness is never used.
-/
import proofs.«126602_j18769007084097_2_alg».proof.Defs
import proofs.«126602_j18769007084097_2_alg».proof.Proof.Gen.Kernel.Frame
import proofs.«126602_j18769007084097_2_alg».proof.Proof.Gen.KernelIdeal.Frame
import proofs.«126602_j18769007084097_2_alg».proof.Proof.Gen.ReferenceIdeal
import proofs.«126602_j18769007084097_2_alg».proof.Proof.Gen.Pre_finite_inputs
import proofs.«126602_j18769007084097_2_alg».proof.Proof.ReferenceRun
import proofs.«126602_j18769007084097_2_alg».proof.Proof.ReferenceValue
import proofs.«126602_j18769007084097_2_alg».proof.Proof.RegionInputs
import proofs.«126602_j18769007084097_2_alg».proof.Proof.KernelResult
import Idealize.ShloMosaic.Adequacy
import Idealize.ShloMosaic.Init

noncomputable section

namespace Cert.Proof

open Idealize.ShloMosaic Idealize.SL.Sem

/-- The printed kernel runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations, none of which writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefRun.run (F := Ideal) m ρ)

/-- What the host operations before the launch pack into the arrays the kernel's body reads whole. -/
theorem packed (m : (ℓ : Loc Cert.KernelIdeal.nD Cert.KernelIdeal.τ Cert.KernelIdeal.sig) → Buf (Elt Ideal) ℓ) (c : Dev Cert.KernelIdeal.nD) :
    Cert.KernelIdeal.TileSpec.Packed m c :=
  ⟨Cert.KernelIdeal.RegionInputs.projW_at m c, Cert.KernelIdeal.RegionInputs.memory_at m c,
    Cert.KernelIdeal.RegionInputs.gvForget_at m c, Cert.KernelIdeal.RegionInputs.gvUpdate_at m c,
    Cert.KernelIdeal.RegionInputs.gvMix_at m c, Cert.KernelIdeal.RegionInputs.gxForget_at m c,
    Cert.KernelIdeal.RegionInputs.gxUpdate_at m c, Cert.KernelIdeal.RegionInputs.biasForget_at m c,
    Cert.KernelIdeal.RegionInputs.biasUpdate_at m c, Cert.KernelIdeal.RegionInputs.biasMix_at m c⟩

/-- On the extended reals, from memories that agree on the arguments, the kernel and the reference both run and end
    with the specification's blended rows and updated memory of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KernelResult.run (m := m) ρ (packed m), ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).1, (hagree c).2.1, (hagree c).2.2.1, (hagree c).2.2.2.2.2.2.2.1, (hagree c).2.2.2.2.2.2.2.2]
    exact Cert.ReferenceIdeal.RefValue.tOut_eq_out _ _ _ _ _
  · rw [(hagree c).1, (hagree c).2.1, (hagree c).2.2.1, (hagree c).2.2.2.1, (hagree c).2.2.2.2.1, (hagree c).2.2.2.2.2.1, (hagree c).2.2.2.2.2.2.1]
    exact Cert.ReferenceIdeal.RefValue.tNewM_eq_newM _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
